-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) (main_arg2 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x3x512x512 .f32 := Host.absf main_arg2
  let main_cst_2 : FVec F S_ .f32 := constant S_ .f32 0x7F800000#32
  let main_v10 : FVec F S16x3x512x512 .f32 := broadcastInDim S16x3x512x512 ![] bcast_S_S16x3x512x512 main_cst_2
  let main_v11 : IVec S16x3x512x512 1 := cmpf .olt main_v9 main_v10
  let main_c_3 : IVec S_ 1 := constantI S_ 1 1#1
  let main_v12 : IVec S_ 1 := (fun x v => Host.reduce IntOp.andi x v reducesTo_S16x3x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S16x1 : Shape := ⟨2, ![16, 1]⟩
abbrev S8x3x64x512 : Shape := ⟨4, ![8, 3, 64, 512]⟩
abbrev S8x1 : Shape := ⟨2, ![8, 1]⟩
abbrev S8x3 : Shape := ⟨2, ![8, 3]⟩
abbrev S8x1x64x512 : Shape := ⟨4, ![8, 1, 64, 512]⟩
abbrev S8x64x512 : Shape := ⟨3, ![8, 64, 512]⟩
abbrev S8x64 : Shape := ⟨2, ![8, 64]⟩
abbrev S8x64x1 : Shape := ⟨3, ![8, 64, 1]⟩
abbrev S8 : Shape := ⟨1, ![8]⟩
abbrev S16 : Shape := ⟨1, ![16]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S16x1, .f32⟩
  | .hbm, ⟨4, _⟩ => ⟨S16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x3x64x512, .f32⟩
  | .local _ .vmem, ⟨5, _⟩ => ⟨S8x3x64x512, .f32⟩
  | .local _ .vmem, ⟨6, _⟩ => ⟨S8x1, .f32⟩
  | .local _ .vmem, ⟨7, _⟩ => ⟨S8x1, .f32⟩
  | .local _ .vmem, ⟨8, _⟩ => ⟨S8x3, .f32⟩
  | .local _ .vmem, ⟨9, _⟩ => ⟨S8x3, .f32⟩
  | .local _ .vmem, ⟨10, _⟩ => ⟨S8x3, .f32⟩
  | .local _ .vmem, ⟨11, _⟩ => ⟨S8x3, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v99 : BitVec 1 := Scalar.cmpi .eq arg1 c7_i32
  let v100 : BitVec 32 := Scalar.extui v99
  let c0_i32_51 : BitVec 32 := 0#32
  let v101 : BitVec 1 := Scalar.cmpi .ne v100 c0_i32_51
  v101

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x3_S8x3_0_0 : ∀ a, (![0, 0] : Fin 2 → Nat) a + S8x3.size a ≤ S8x3.size a
  h_S8x3 : 0 < S8x3.numel
  shapeCasts_S8x3_S8x3 : S8x3.ShapeCasts S8x3
  inb_S8x3x64x512_S8x3x64x512_0_0_0_0 : ∀ a, (![0, 0, 0, 0] : Fin 4 → Nat) a + S8x3x64x512.size a ≤ S8x3x64x512.size a
  h_S8x3x64x512 : 0 < S8x3x64x512.numel
  slices_S8x3x64x512_o0_0_0_0_S8x1x64x512 : S8x3x64x512.Slices ![0, 0, 0, 0] S8x1x64x512
  shapeCasts_S8x1x64x512_S8x64x512 : S8x1x64x512.ShapeCasts S8x64x512
  reduces_S8x64x512_S8x64 : S8x64x512.Reduces [2] S8x64
  shapeCasts_S8x64_S8x64x1 : S8x64.ShapeCasts S8x64x1
  reduces_S8x64x1_S8x1 : S8x64x1.Reduces [1] S8x1
  slices_S8x3x64x512_o0_1_0_0_S8x1x64x512 : S8x3x64x512.Slices ![0, 1, 0, 0] S8x1x64x512
  slices_S8x3x64x512_o0_2_0_0_S8x1x64x512 : S8x3x64x512.Slices ![0, 2, 0, 0] S8x1x64x512
  concatenates_S8x1_S8x1_S8x1_S8x3_d1 : Shape.Concatenates [S8x1, S8x1, S8x1] S8x3 1
  reduces_S8x3_S8 : S8x3.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  shapeCasts_S16x1_S16 : S16x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S16x3x512x512.size a
  hwx0_0 : ∀ i : grid0.Coords, EltTy.bits .f32 = 32 ∨ (Rect.block (s := S16x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S16x3x512x512.size a
  hwx0_1 : ∀ i : grid0.Coords, EltTy.bits .f32 = 32 ∨ (Rect.block (s := S16x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x64x512.size a ≤ S16x3x512x512.size a
  hwx0_2 : ∀ i : grid0.Coords, EltTy.bits .f32 = 32 ∨ (Rect.block (s := S16x3x512x512) S8x3x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)

variable [Facts₀]

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x3x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S16x3 : Shape := ⟨2, ![16, 3]⟩
abbrev S16x3x1x1 : Shape := ⟨4, ![16, 3, 1, 1]⟩
abbrev S16 : Shape := ⟨1, ![16]⟩

abbrev nBuf : Space → Nat
  | .hbm => 42
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S16x3x512x512, .f32⟩
  | .hbm, ⟨4, _⟩ => ⟨S16x3x512x512, .f32⟩
  | .hbm, ⟨5, _⟩ => ⟨S_, .f32⟩
  | .hbm, ⟨6, _⟩ => ⟨S16x3, .f32⟩
  | .hbm, ⟨7, _⟩ => ⟨S16x3x512x512, .f32⟩
  | .hbm, ⟨8, _⟩ => ⟨S16x3x512x512, .f32⟩
  | .hbm, ⟨9, _⟩ => ⟨S_, .f32⟩
  | .hbm, ⟨10, _⟩ => ⟨S16x3, .f32⟩
  | .hbm, ⟨11, _⟩ => ⟨S_, .f32⟩
  | .hbm, ⟨12, _⟩ => ⟨S16x3, .f32⟩
  | .hbm, ⟨13, _⟩ => ⟨S16x3, .i1⟩
  | .hbm, ⟨14, _⟩ => ⟨S_, .f32⟩
  | .hbm, ⟨15, _⟩ => ⟨S_, .f32⟩
  | .hbm, ⟨16, _⟩ => ⟨S16x3, .f32⟩
  | .hbm, ⟨17, _⟩ => ⟨S16x3, .f32⟩
  | .hbm, ⟨18, _⟩ => ⟨S16x3, .f32⟩
  | .hbm, ⟨19, _⟩ => ⟨S_, .f32⟩
  | .hbm, ⟨20, _⟩ => ⟨S_, .f32⟩
  | .hbm, ⟨21, _⟩ => ⟨S16x3, .f32⟩
  | .hbm, ⟨22, _⟩ => ⟨S16x3, .f32⟩
  | .hbm, ⟨23, _⟩ => ⟨S16x3x1x1, .f32⟩
  | .hbm, ⟨24, _⟩ => ⟨S16x3x512x512, .f32⟩
  | .hbm, ⟨25, _⟩ => ⟨S16x3x512x512, .f32⟩
  | .hbm, ⟨26, _⟩ => ⟨S16x3x512x512, .f32⟩
  | .hbm, ⟨27, _⟩ => ⟨S16x3x512x512, .f32⟩
  | .hbm, ⟨28, _⟩ => ⟨S16x3x512x512, .f32⟩
  | .hbm, ⟨29, _⟩ => ⟨S_, .f32⟩
  | .hbm, ⟨30, _⟩ => ⟨S16x3, .f32⟩
  | .hbm, ⟨31, _⟩ => ⟨S_, .f32⟩
  | .hbm, ⟨32, _⟩ => ⟨S16x3, .f32⟩
  | .hbm, ⟨33, _⟩ => ⟨S16x3, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  reducesTo_S16x3x512x512_S16x3_d2_3 : S16x3x512x512.ReducesTo [2, 3] S16x3
  h_S_ : 0 < S_.numel
  bcast_S_S16x3 : S_.BroadcastsInDim S16x3 (![] : Fin 0 → Fin S16x3.rank)
  bcast_S16x3_S16x3x1x1_0_1 : S16x3.BroadcastsInDim S16x3x1x1 (![0, 1] : Fin 2 → Fin S16x3x1x1.rank)
  bcast_S16x3x1x1_S16x3x512x512_0_1_2_3 : S16x3x1x1.BroadcastsInDim S16x3x512x512 (![0, 1, 2, 3] : Fin 4 → Fin S16x3x512x512.rank)
  reducesTo_S16x3_S16_d1 : S16x3.ReducesTo [1] S16
  reducesTo_S16_S_d0 : S16.ReducesTo [0] S_

variable [Facts₀]

class Facts : Prop extends Facts₀ where

variable [Facts]
-- ==== Proof.LibPlaneReads.lean ====
/-
  Rank-4 arrays `[a, b, m, n]` read at an index given by coordinates (library imports only): the last two axes as a
  PLANE, the second axis as a CHANNEL.

  * a sum over the plane: the source indices whose first two coordinates are `(p, q)`, summed, are the double sum
    over the plane's coordinates (`sum_filter_plane`); so at the ideal values a `vector.multi_reduction <add>` over
    axes `[2, 3]` read at `(p, q)` is `∑ h, ∑ w, src (p, q, h, w)` (`multiReduction_add_plane`), and the host's
    `reduce add` over dimensions `[2, 3]` is the initial value plus that sum (`hostReduceAdd_plane`);
  * a reduction over the channel axis `[1]` read at `(p, h, w)`: a sum over `k` of `src (p, k, h, w)`, a fold of
    `max` or `min` over `k` from the accumulator's value — for the vector operation and for the host's;
  * the keepdims forms around such reductions: `[a, b]` cast to `[a, b, 1, 1]`; `[a, b, 1, 1]` and `[a, 1, m, n]`
    broadcast to `[a, b, m, n]`; `[a, 1, 1, 1]` broadcast to `[a, b, 1, 1]`;
  * three `[a, 1, m, n]` arrays joined along axis 1 into `[a, 3, m, n]`, read at `(p, ch, h, w)`, is the piece
    numbered `ch` at `(p, 0, h, w)` (`concat3_axis1_apply`, over `pick3`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.PlaneReads

open Idealize.ShloMosaic Idealize.ShloMosaic.ValueIdx

variable {α : Type}

/-! ## A sum over the plane -/

/-- The indices of `[a, b, m, n]` that a map `drop` keeping the first two coordinates sends to `(p, q)`, summed, are
    the plane's coordinates, summed one axis after the other. -/
theorem sum_filter_plane [AddCommMonoid α] {a b m n : Nat}
    (drop : (⟨4, ![a, b, m, n]⟩ : Shape).Idx → (⟨2, ![a, b]⟩ : Shape).Idx)
    (hd0 : ∀ i, (drop i 0).val = (i 0).val) (hd1 : ∀ i, (drop i 1).val = (i 1).val)
    (x : (⟨4, ![a, b, m, n]⟩ : Shape).Idx → α) (p : Fin a) (q : Fin b) :
    ∑ i ∈ Finset.univ.filter (fun i => drop i = ix2 p q), x i = ∑ h : Fin m, ∑ w : Fin n, x (ix4 p q h w) := by
  refine Eq.trans ?_ (Fintype.sum_prod_type' (fun (h : Fin m) (w : Fin n) => x (ix4 p q h w)))
  have key : ∀ i ∈ Finset.univ.filter (fun i => drop i = ix2 p q), ix4 p q (i 2 : Fin m) (i 3 : Fin n) = i := by
    intro i hi
    have hj := (Finset.mem_filter.1 hi).2
    have h0 : (i 0).val = p.val := by rw [← hd0 i, hj]; rfl
    have h1 : (i 1).val = q.val := by rw [← hd1 i, hj]; rfl
    funext d
    match d with
    | ⟨0, _⟩ => exact Fin.ext h0.symm
    | ⟨1, _⟩ => exact Fin.ext h1.symm
    | ⟨2, _⟩ => rfl
    | ⟨3, _⟩ => rfl
  refine Finset.sum_nbij' (fun i => ((i 2 : Fin m), (i 3 : Fin n))) (fun hw => ix4 p q hw.1 hw.2) ?_ ?_ ?_ ?_ ?_
  · intro i _; exact Finset.mem_univ _
  · intro hw _
    refine Finset.mem_filter.2 ⟨Finset.mem_univ _, ?_⟩
    funext d
    match d with
    | ⟨0, _⟩ => exact Fin.ext (hd0 _)
    | ⟨1, _⟩ => exact Fin.ext (hd1 _)
  · intro i hi; exact key i hi
  · intro hw _; rfl
  · intro i hi; exact congrArg x (key i hi).symm

/-- At the ideal values a `vector.multi_reduction <add>` over the plane axes `[2, 3]`, read at `(p, q)`, is the double
    sum of the source over the plane. -/
theorem multiReduction_add_plane {φ : FTy} {a b m n : Nat} (src : FVec Ideal ⟨4, ![a, b, m, n]⟩ φ) (acc : BitVec φ.bits)
    (h : (⟨4, ![a, b, m, n]⟩ : Shape).Reduces [2, 3] ⟨2, ![a, b]⟩) (hφ : FKind.Formats φ)
    (hacc : acc = FKind.add.neutral φ hφ) (p : Fin a) (q : Fin b) :
    multiReduction .add [2, 3] ⟨2, ![a, b]⟩ src acc h hφ hacc (ix2 p q) = ∑ hh : Fin m, ∑ w : Fin n, src (ix4 p q hh w) :=
  sum_filter_plane h.drop (fun _ => rfl) (fun _ => rfl) src p q

/-- The host's `reduce add` over dimensions `[2, 3]`, read at `(p, q)` at the ideal values: the initial value plus the
    double sum of the operand over the plane. -/
theorem hostReduceAdd_plane {φ : FTy} {a b m n : Nat} {u : Shape} (x : FVec Ideal ⟨4, ![a, b, m, n]⟩ φ) (init : u.Idx → Ideal φ)
    (h : (⟨4, ![a, b, m, n]⟩ : Shape).ReducesTo [2, 3] ⟨2, ![a, b]⟩) (hu : 0 < u.numel) (p : Fin a) (q : Fin b) :
    Host.reduceAdd x init h hu (ix2 p q) = init (Shape.Idx.first hu) + ∑ hh : Fin m, ∑ w : Fin n, x (ix4 p q hh w) :=
  congrArg (init (Shape.Idx.first hu) + ·)
    (sum_filter_plane h.drop (fun _ => rfl) (fun _ => rfl) x p q)

/-! ## A reduction over the channel axis -/

/-- The index a reduction over axis 1 inserts channel `k` into is `(p, k, h, w)`. -/
theorem lift_channel {a c m n : Nat} (h : (⟨4, ![a, c, m, n]⟩ : Shape).Reduces [1] ⟨3, ![a, m, n]⟩)
    (p : Fin a) (hh : Fin m) (w : Fin n) (k : Fin c) : h.lift (ix3 p hh w) k = ix4 p k hh w := by
  funext d
  apply Fin.ext
  match d with
  | ⟨0, _⟩ => rfl
  | ⟨1, _⟩ => rfl
  | ⟨2, _⟩ => rfl
  | ⟨3, _⟩ => rfl

/-- At the ideal values a `vector.multi_reduction <add>` over the channel axis, read at `(p, h, w)`, is the sum over
    the channels. -/
theorem multiReduction_add_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.add.neutral φ hφ) (p : Fin a) (hh : Fin m) (w : Fin n) :
    multiReduction .add [1] ⟨3, ![a, m, n]⟩ src acc h hφ hacc (ix3 p hh w) = ∑ k : Fin c, src (ix4 p k hh w) :=
  (Ideal.multiReduction_add_single src acc h hφ hacc (ix3 p hh w)).trans
    (Finset.sum_congr rfl fun k _ => congrArg src (lift_channel h p hh w k))

/-- At the ideal values a `vector.multi_reduction <maximumf>` over the channel axis, read at `(p, h, w)`, is the fold of
    `max` over the channels from the accumulator's value. -/
theorem multiReduction_max_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.maximumf.neutral φ hφ) (p : Fin a) (hh : Fin m) (w : Fin n) :
    multiReduction .maximumf [1] ⟨3, ![a, m, n]⟩ src acc h hφ hacc (ix3 p hh w)
      = (Finset.univ : Finset (Fin c)).fold max (Ideal.ofBits φ acc) (fun k => src (ix4 p k hh w)) :=
  (Ideal.multiReduction_maximumf_single src acc h hφ hacc (ix3 p hh w)).trans
    (congrArg (fun f => (Finset.univ : Finset (Fin c)).fold max (Ideal.ofBits φ acc) f)
      (funext fun k => congrArg src (lift_channel h p hh w k)))

/-- The same for `<minimumf>`: the fold of `min`. -/
theorem multiReduction_min_channel {φ : FTy} {a c m n : Nat} (src : FVec Ideal ⟨4, ![a, c, m, n]⟩ φ) (acc : BitVec φ.bits)
    (h : (⟨4, ![a, c, m, n]⟩ : Shape).Reduces [1] ⟨3, ![a, m, n]⟩) (hφ : FKind.Formats φ)
    (hacc : acc = FKind.minimumf.neutral φ hφ) (p : Fin a) (hh : Fin m) (w : Fin n) :
    multiReduction .minimumf [1] ⟨3, ![a, m, n]⟩ src acc h hφ hacc (ix3 p hh w)
      = (Finset.univ : Finset (Fin c)).fold min (Ideal.ofBits φ acc) (fun k => src (ix4 p k hh w)) := by
  rw [multiReduction_minimumf_eq_fold]
  refine (h.fold_filter_drop_single _ _ src (ix3 p hh w)).trans ?_
  exact congrArg (fun f => (Finset.univ : Finset (Fin c)).fold min (Ideal.ofBits φ acc) f)
    (funext fun k => congrArg src (lift_channel h p hh w k))

/-- The host's `reduce` with a `maximum` body over dimension 1, read at `(p, h, w)` at the ideal values. -/
theorem hostReduce_max_channel {φ : FTy} {a c m n : Nat} {u : Shape} (x : FVec Ideal ⟨4, ![a, c, m, n]⟩ φ) (init : u.Idx → Ideal φ)
    (h' : (⟨4, ![a, c, m, n]⟩ : Shape).ReducesTo [1] ⟨3, ![a, m, n]⟩) (h : (⟨4, ![a, c, m, n]⟩ : Shape).Reduces [1] ⟨3, ![a, m, n]⟩)
    (hu : 0 < u.numel) (p : Fin a) (hh : Fin m) (w : Fin n) :
    Host.reduce FloatOps.maximumf x init h' hu (ix3 p hh w)
      = (Finset.univ : Finset (Fin c)).fold max (init (Shape.Idx.first hu)) (fun k => x (ix4 p k hh w)) :=
  (Host.reduce_eq_fold_single FloatOps.maximumf x init h' h hu (ix3 p hh w)).trans
    (congrArg (fun f => (Finset.univ : Finset (Fin c)).fold max (init (Shape.Idx.first hu)) f)
      (funext fun k => congrArg x (lift_channel h p hh w k)))

/-- The host's `reduce` with a `minimum` body over dimension 1, read at `(p, h, w)` at the ideal values. -/
theorem hostReduce_min_channel {φ : FTy} {a c m n : Nat} {u : Shape} (x : FVec Ideal ⟨4, ![a, c, m, n]⟩ φ) (init : u.Idx → Ideal φ)
    (h' : (⟨4, ![a, c, m, n]⟩ : Shape).ReducesTo [1] ⟨3, ![a, m, n]⟩) (h : (⟨4, ![a, c, m, n]⟩ : Shape).Reduces [1] ⟨3, ![a, m, n]⟩)
    (hu : 0 < u.numel) (p : Fin a) (hh : Fin m) (w : Fin n) :
    Host.reduce FloatOps.minimumf x init h' hu (ix3 p hh w)
      = (Finset.univ : Finset (Fin c)).fold min (init (Shape.Idx.first hu)) (fun k => x (ix4 p k hh w)) :=
  (Host.reduce_eq_fold_single FloatOps.minimumf x init h' h hu (ix3 p hh w)).trans
    (congrArg (fun f => (Finset.univ : Finset (Fin c)).fold min (init (Shape.Idx.first hu)) f)
      (funext fun k => congrArg x (lift_channel h p hh w k)))

/-! ## The keepdims forms -/

/-- An `[a, b]` array cast to `[a, b, 1, 1]`, read at `(p, q, u, v)`, is the operand at `(p, q)`. -/
theorem shapeCast_ab_ab11_apply {a b : Nat} (x : (⟨2, ![a, b]⟩ : Shape).Idx → α)
    (h : (⟨2, ![a, b]⟩ : Shape).ShapeCasts ⟨4, ![a, b, 1, 1]⟩) (p : Fin a) (q : Fin b) (u v : Fin 1) :
    shapeCast ⟨4, ![a, b, 1, 1]⟩ x h (ix4 p q u v) = x (ix2 p q) :=
  shapeCast_apply x h _ _ (by
    have hu : u.val = 0 := by omega
    have hv : v.val = 0 := by omega
    rw [Shape.rowMajor_val_four, Shape.rowMajor_val_two]
    show p.val * b + q.val = ((p.val * b + q.val) * 1 + u.val) * 1 + v.val
    rw [hu, hv]; simp)

/-- An `[a, 1, m, n]` array broadcast along the channel axis to `[a, b, m, n]`, read at `(p, q, h, w)`, is the operand at
    `(p, 0, h, w)`. -/
theorem broadcastTo_a1mn_abmn_apply {a b m n : Nat} (v : (⟨4, ![a, 1, m, n]⟩ : Shape).Idx → α)
    (h : (⟨4, ![a, 1, m, n]⟩ : Shape).Broadcasts ⟨4, ![a, b, m, n]⟩) (p : Fin a) (q : Fin b) (hh : Fin m) (w : Fin n) :
    broadcastTo ⟨4, ![a, b, m, n]⟩ v h (ix4 p q hh w) = v (ix4 p (0 : Fin 1) hh w) := by
  refine broadcastTo_apply v h (ix4 p q hh w) (ix4 p (0 : Fin 1) hh w) fun ax => ?_
  match ax with
  | ⟨0, _⟩ =>
    show p.val = if a = 1 then 0 else p.val
    split
    · have := p.isLt; omega
    · rfl
  | ⟨1, _⟩ => rfl
  | ⟨2, _⟩ =>
    show hh.val = if m = 1 then 0 else hh.val
    split
    · have := hh.isLt; omega
    · rfl
  | ⟨3, _⟩ =>
    show w.val = if n = 1 then 0 else w.val
    split
    · have := w.isLt; omega
    · rfl

/-- An `[a, b, 1, 1]` array broadcast over the plane to `[a, b, m, n]`, read at `(p, q, h, w)`, is the operand at
    `(p, q, 0, 0)`. -/
theorem broadcastTo_ab11_abmn_apply {a b m n : Nat} (v : (⟨4, ![a, b, 1, 1]⟩ : Shape).Idx → α)
    (h : (⟨4, ![a, b, 1, 1]⟩ : Shape).Broadcasts ⟨4, ![a, b, m, n]⟩) (p : Fin a) (q : Fin b) (hh : Fin m) (w : Fin n) :
    broadcastTo ⟨4, ![a, b, m, n]⟩ v h (ix4 p q hh w) = v (ix4 p q (0 : Fin 1) (0 : Fin 1)) := by
  refine broadcastTo_apply v h (ix4 p q hh w) (ix4 p q (0 : Fin 1) (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl
  | ⟨3, _⟩ => rfl

/-- An `[a, 1, 1, 1]` array broadcast along the channel axis to `[a, b, 1, 1]`, read at `(p, q, u, v)`, is the operand at
    `(p, 0, 0, 0)`. -/
theorem broadcastTo_a111_ab11_apply {a b : Nat} (x : (⟨4, ![a, 1, 1, 1]⟩ : Shape).Idx → α)
    (h : (⟨4, ![a, 1, 1, 1]⟩ : Shape).Broadcasts ⟨4, ![a, b, 1, 1]⟩) (p : Fin a) (q : Fin b) (u v : Fin 1) :
    broadcastTo ⟨4, ![a, b, 1, 1]⟩ x h (ix4 p q u v) = x (ix4 p (0 : Fin 1) (0 : Fin 1) (0 : Fin 1)) := by
  refine broadcastTo_apply x h (ix4 p q u v) (ix4 p (0 : Fin 1) (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl
  | ⟨3, _⟩ => rfl

/-! ## Three pieces joined along the channel axis -/

/-- One of three values, by a channel number below 3. -/
def pick3 {β : Type} (x0 x1 x2 : β) (ch : Fin 3) : β :=
  match ch with
  | ⟨0, _⟩ => x0
  | ⟨1, _⟩ => x1
  | ⟨2, _⟩ => x2

/-- `pick3` of equal triples. -/
theorem pick3_congr {β : Type} {x0 x1 x2 y0 y1 y2 : β} (e0 : x0 = y0) (e1 : x1 = y1) (e2 : x2 = y2) (ch : Fin 3) :
    pick3 x0 x1 x2 ch = pick3 y0 y1 y2 ch := by rw [e0, e1, e2]

/-- Three `[a, 1, m, n]` arrays joined along axis 1 into `[a, 3, m, n]`, read at `(p, ch, h, w)`: piece `ch` at
    `(p, 0, h, w)`. -/
theorem concat3_axis1_apply {a m n : Nat} (x0 x1 x2 : (⟨4, ![a, 1, m, n]⟩ : Shape).Idx → α)
    (hc : Shape.Concatenates (([⟨⟨4, ![a, 1, m, n]⟩, x0⟩, ⟨⟨4, ![a, 1, m, n]⟩, x1⟩, ⟨⟨4, ![a, 1, m, n]⟩, x2⟩] :
      List ((s : Shape) × (s.Idx → α))).map (·.1)) ⟨4, ![a, 3, m, n]⟩ 1)
    (p : Fin a) (ch : Fin 3) (hh : Fin m) (w : Fin n) :
    concatenate ⟨4, ![a, 3, m, n]⟩ 1 [⟨⟨4, ![a, 1, m, n]⟩, x0⟩, ⟨⟨4, ![a, 1, m, n]⟩, x1⟩, ⟨⟨4, ![a, 1, m, n]⟩, x2⟩] hc (ix4 p ch hh w)
      = pick3 (x0 (ix4 p (0 : Fin 1) hh w)) (x1 (ix4 p (0 : Fin 1) hh w)) (x2 (ix4 p (0 : Fin 1) hh w)) ch := by
  have hi : ∀ (c : Fin 3) (b : Fin 4), b.cast rfl ≠ (1 : Fin 4) →
      ((ix4 p (0 : Fin 1) hh w : (⟨4, ![a, 1, m, n]⟩ : Shape).Idx) b).val
        = ((ix4 p c hh w : (⟨4, ![a, 3, m, n]⟩ : Shape).Idx) (b.cast rfl)).val := by
    intro c b hb
    match b with
    | ⟨0, _⟩ => rfl
    | ⟨1, _⟩ => exact absurd rfl hb
    | ⟨2, _⟩ => rfl
    | ⟨3, _⟩ => rfl
  match ch with
  | ⟨0, _⟩ =>
    exact concatenate_apply_piece 1 _ hc _ 0 (by show 0 < 3; omega) _ x0 rfl rfl 0 rfl (ix4 p (0 : Fin 1) hh w) (hi _) rfl
  | ⟨1, _⟩ =>
    exact concatenate_apply_piece 1 _ hc _ 1 (by show 1 < 3; omega) _ x1 rfl rfl 1 rfl (ix4 p (0 : Fin 1) hh w) (hi _) rfl
  | ⟨2, _⟩ =>
    exact concatenate_apply_piece 1 _ hc _ 2 (by show 2 < 3; omega) _ x2 rfl rfl 2 rfl (ix4 p (0 : Fin 1) hh w) (hi _) rfl

end Idealize.ShloMosaic.PlaneReads

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.ResidualAlgebra.lean ====
/-
  The algebra that joins the two programs. For one sample and one channel write c, e, m for the plane of the
  target, the estimate and the mask. With v = Σ e·(e·m), num = Σ c·(e·m) and the fitted scale a (num / v when v
  exceeds the threshold, 0 otherwise), the masked squared residual Σ (m·(c − a·e))·(c − a·e) equals the closed
  form Σ (m·c)·c − (2·a)·num + (a·a)·v. On the extended reals this needs every entry and the scale to be real:
  the expansion uses distributivity, which fails at the infinities.
-/
import proofs.«102406_j40819369181889_2_alg».proof.Proof.LibRealSums
import Idealize.ShloMosaic.PureOps.Ideal
import Idealize.ShloMosaic.PureOps.Ideal.Laws

noncomputable section

open scoped BigOperators

namespace Cert.Residual

open Idealize.ShloMosaic Cert.Math

/-- The literal 2.0 denotes the real 2. -/
theorem ofBits_two : Ideal.ofBits .f32 0x40000000#32 = ((2 : ℝ) : EReal) := by
  simp [Ideal.ofBits, Ideal.ieee, -EReal.coe_mul]; norm_num

/-- The literal 1.0 denotes the real 1. -/
theorem ofBits_one : Ideal.ofBits .f32 0x3F800000#32 = ((1 : ℝ) : EReal) := by
  simp [Ideal.ofBits, Ideal.ieee, -EReal.coe_mul]; norm_num

/-- The threshold literal (the f32 nearest 1e-5) denotes a positive real. -/
theorem thr_pos : (0 : EReal) < Ideal.ofBits .f32 0x3727C5AC#32 := by
  simp [Ideal.ofBits, Ideal.ieee, -EReal.coe_mul]

/-- The fitted scale of one plane from v = Σ e·(e·m) and num = Σ c·(e·m): num / v where v exceeds the threshold, and
    0 elsewhere. (Both programs choose the divisor a second time, v or 1, by the same test; under the outer choice it
    is v.) -/
def scale (v num : EReal) : EReal :=
  Scalar.select (Ideal.cmp .ogt v (Ideal.ofBits .f32 0x3727C5AC#32))
    (Ideal.div num (Scalar.select (Ideal.cmp .ogt v (Ideal.ofBits .f32 0x3727C5AC#32)) v (Ideal.ofBits .f32 0x3F800000#32)))
    (Ideal.ofBits .f32 0x00000000#32)

/-- The scale of real v and num is real: where it is a quotient, v is above a positive threshold, so it is a nonzero
    real and the quotient is the real one. -/
theorem scale_isReal {v num : EReal} (hv : IsReal v) (hn : IsReal num) : IsReal (scale v num) := by
  unfold scale Scalar.select
  by_cases h : Ideal.cmp .ogt v (Ideal.ofBits .f32 0x3727C5AC#32) = 1
  · rw [if_pos h, if_pos h]
    obtain ⟨v', rfl⟩ := hv
    obtain ⟨n', rfl⟩ := hn
    have hlt : Ideal.ofBits .f32 0x3727C5AC#32 < (v' : EReal) := by
      by_contra hcon
      simp [Ideal.cmp, hcon] at h
    have hv0 : v' ≠ 0 := by
      intro h0
      subst h0
      exact absurd (lt_trans thr_pos hlt) (lt_irrefl _)
    rw [Ideal.div_coe hv0]
    exact (isReal_coe _).mul (isReal_coe _)
  · rw [if_neg h, Ideal.ofBits_zero_f32]
    exact isReal_zero

variable {ι : Type} [Fintype ι]

/-- Expanding the square under the sum: for real entries and a real scale a,
    Σ (m·(c − a·e))·(c − a·e) = Σ (m·c)·c − (2·a)·Σ c·(e·m) + (a·a)·Σ e·(e·m). -/
theorem expand_residual (c e m : ι → EReal) (hc : ∀ i, IsReal (c i)) (he : ∀ i, IsReal (e i))
    (hm : ∀ i, IsReal (m i)) {a : EReal} (ha : IsReal a) :
    ∑ i, (m i * (c i - a * e i)) * (c i - a * e i)
      = (∑ i, (m i * c i) * c i) - (Ideal.ofBits .f32 0x40000000#32 * a) * (∑ i, c i * (e i * m i))
          + (a * a) * (∑ i, e i * (e i * m i)) := by
  choose c' hc' using hc
  choose e' he' using he
  choose m' hm' using hm
  obtain ⟨a', rfl⟩ := ha
  simp only [hc', he', hm', ofBits_two]
  simp only [← EReal.coe_mul, ← EReal.coe_sub, ← coe_sum, ← EReal.coe_add]
  congr 1
  simp only [Finset.mul_sum, ← Finset.sum_sub_distrib, ← Finset.sum_add_distrib]
  exact Finset.sum_congr rfl fun i _ => by ring

/-- One plane's quotient as the kernel forms it: the closed form of the residual over the mask's sum. -/
def quotClosed (c e m : ι → EReal) : EReal :=
  Ideal.div
    ((∑ i, (m i * c i) * c i)
        - (Ideal.ofBits .f32 0x40000000#32 * scale (∑ i, e i * (e i * m i)) (∑ i, c i * (e i * m i))) * (∑ i, c i * (e i * m i))
      + (scale (∑ i, e i * (e i * m i)) (∑ i, c i * (e i * m i)) * scale (∑ i, e i * (e i * m i)) (∑ i, c i * (e i * m i)))
          * (∑ i, e i * (e i * m i)))
    (∑ i, m i)

/-- One plane's quotient as the reference forms it: the masked squared residual, summed, over the mask's sum. -/
def quotResidual (c e m : ι → EReal) : EReal :=
  Ideal.div
    (∑ i, (m i * (c i - scale (∑ i, (e i * e i) * m i) (∑ i, (c i * e i) * m i) * e i))
        * (c i - scale (∑ i, (e i * e i) * m i) (∑ i, (c i * e i) * m i) * e i))
    (∑ i, m i)

/-- For real entries the two quotients agree (whatever the mask's sum is, zero included: the division is applied to
    equal arguments). -/
theorem quot_eq (c e m : ι → EReal) (hc : ∀ i, IsReal (c i)) (he : ∀ i, IsReal (e i)) (hm : ∀ i, IsReal (m i)) :
    quotResidual c e m = quotClosed c e m := by
  unfold quotResidual quotClosed
  have hv : ∑ i, (e i * e i) * m i = ∑ i, e i * (e i * m i) := Finset.sum_congr rfl fun i _ => mul_assoc _ _ _
  have hn : ∑ i, (c i * e i) * m i = ∑ i, c i * (e i * m i) := Finset.sum_congr rfl fun i _ => mul_assoc _ _ _
  rw [hv, hn]
  have hvr : IsReal (∑ i, e i * (e i * m i)) := IsReal.sum _ _ fun i _ => (he i).mul ((he i).mul (hm i))
  have hnr : IsReal (∑ i, c i * (e i * m i)) := IsReal.sum _ _ fun i _ => (hc i).mul ((he i).mul (hm i))
  rw [expand_residual c e m hc he hm (scale_isReal hvr hnr)]

end Cert.Residual

end
-- ==== Proof.Spec.lean ====
/-
  The common value of the two programs before the final mean. For sample l the row value is the sum over the three
  channels q of one plane's quotient: the closed form of the masked squared residual of the plane (l, q) over the
  plane's mask sum. Both programs then add the 16 row values and divide by 16 and by 3.
-/
import proofs.«102406_j40819369181889_2_alg».proof.Proof.ResidualAlgebra
import Idealize.ShloMosaic.Lib.ValueIdx

noncomputable section

open scoped BigOperators

namespace Cert.Residual

open Idealize.ShloMosaic Idealize.ShloMosaic.ValueIdx

/-- The closing formula of one plane from its four sums v = Σ e·(e·m), num = Σ c·(e·m), scc = Σ (m·c)·c and the mask sum:
    the closed form of the residual over the mask sum. -/
def closing (v num scc ms : EReal) : EReal :=
  Ideal.div ((scc - (Ideal.ofBits .f32 0x40000000#32 * scale v num) * num) + (scale v num * scale v num) * v) ms

/-- One plane's quotient is the closing formula of the plane's four sums. -/
theorem quotClosed_eq_closing {ι : Type} [Fintype ι] (c e m : ι → EReal) :
    quotClosed c e m
      = closing (∑ i, e i * (e i * m i)) (∑ i, c i * (e i * m i)) (∑ i, (m i * c i) * c i) (∑ i, m i) := rfl

/-- The 512 x 512 plane of sample l, channel q, of a [16, 3, 512, 512] array, as a function of (row, lane). -/
def plane (x : (⟨4, ![16, 3, 512, 512]⟩ : Shape).Idx → EReal) (l : Fin 16) (q : Fin 3) : Fin 512 × Fin 512 → EReal :=
  fun hw => x (ix4 l q hw.1 hw.2)

/-- The row value of sample l: the three channels' plane quotients, summed. -/
def rowValue (c e m : (⟨4, ![16, 3, 512, 512]⟩ : Shape).Idx → EReal) (l : Fin 16) : EReal :=
  ∑ q : Fin 3, quotClosed (plane c l q) (plane e l q) (plane m l q)

/-- A double sum over rows and lanes is the sum over the plane's index pairs. -/
theorem sum_plane (f : Fin 512 → Fin 512 → EReal) : ∑ hh, ∑ w, f hh w = ∑ hw : Fin 512 × Fin 512, f hw.1 hw.2 :=
  (Fintype.sum_prod_type' f).symm

end Cert.Residual

end
-- ==== Proof.RefSide.lean ====
/-
  The reference, read one operation at a time at the ideal values: for sample l its row value (the sum over the
  channels of the summed masked squared residual over the mask sum) is the common row value, when every entry of the
  three arguments is real. The reference fits the scale from v = Σ (e·e)·m and num = Σ (c·e)·m, broadcasts it over the
  plane, and sums (m·(c − a·e))·(c − a·e); the closed form of that sum is the algebra of the residual module.
-/
import proofs.«102406_j40819369181889_2_alg».proof.Proof.Gen.ReferenceIdeal.Read
import proofs.«102406_j40819369181889_2_alg».proof.Proof.LibPlaneReads
import proofs.«102406_j40819369181889_2_alg».proof.Proof.Spec
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read
open Idealize.ShloMosaic Idealize.ShloMosaic.ValueIdx Idealize.ShloMosaic.PlaneReads
open Cert.Residual Cert.Math

/-- The reference's argument arrays at the ideal values. -/
abbrev Arr := (⟨S16x3x512x512, .f32⟩ : BufTy).Contents (Elt Ideal)

theorem idx20 (l : Fin 16) (k : Fin 3) : idx_main_v20 (ix1 l) k = ix2 l k := by
  funext a
  apply Fin.ext
  match a with
  | ⟨0, _⟩ => rfl
  | ⟨1, _⟩ => rfl

theorem idx11_12 (l : Fin 16) (q : Fin 3) (hh w : Fin 512) : idx_main_v11 (idx_main_v12 (ix4 l q hh w)) = ix2 l q := by
  funext a
  apply Fin.ext
  match a with
  | ⟨0, _⟩ => rfl
  | ⟨1, _⟩ => rfl

/-- v = Σ (e·e)·m over the plane (l, q). -/
theorem v2_apply (x1 x2 : Arr) (l : Fin 16) (q : Fin 3) :
    val_main_v2 (F := Ideal) x1 x2 (ix2 l q) = ∑ hw, (plane x1 l q hw * plane x1 l q hw) * plane x2 l q hw := by
  unfold val_main_v2
  refine (hostReduceAdd_plane _ _ _ _ l q).trans ?_
  simp only [val_main_cst_apply, Ideal.ofBits_def, Ideal.ofBits_zero_f32, zero_add]
  rw [sum_plane]
  rfl

/-- num = Σ (c·e)·m over the plane (l, q). -/
theorem v5_apply (x0 x1 x2 : Arr) (l : Fin 16) (q : Fin 3) :
    val_main_v5 (F := Ideal) x0 x1 x2 (ix2 l q) = ∑ hw, (plane x0 l q hw * plane x1 l q hw) * plane x2 l q hw := by
  unfold val_main_v5
  refine (hostReduceAdd_plane _ _ _ _ l q).trans ?_
  simp only [val_main_cst_0_apply, Ideal.ofBits_def, Ideal.ofBits_zero_f32, zero_add]
  rw [sum_plane]
  rfl

/-- The mask sum of the plane (l, q). -/
theorem v18_apply (x2 : Arr) (l : Fin 16) (q : Fin 3) :
    val_main_v18 (F := Ideal) x2 (ix2 l q) = ∑ hw, plane x2 l q hw := by
  unfold val_main_v18
  refine (hostReduceAdd_plane _ _ _ _ l q).trans ?_
  simp only [val_main_cst_5_apply, Ideal.ofBits_def, Ideal.ofBits_zero_f32, zero_add]
  rw [sum_plane]
  rfl

/-- The fitted scale of the plane (l, q). -/
theorem v10_apply (x0 x1 x2 : Arr) (l : Fin 16) (q : Fin 3) :
    val_main_v10 (F := Ideal) x0 x1 x2 (ix2 l q)
      = scale (∑ hw, (plane x1 l q hw * plane x1 l q hw) * plane x2 l q hw)
          (∑ hw, (plane x0 l q hw * plane x1 l q hw) * plane x2 l q hw) := by
  rw [val_main_v10_apply, val_main_v9_apply, val_main_v8_apply, val_main_v7_apply, val_main_v6_apply,
    val_main_call0_v1_apply, val_main_call1_v1_apply, v2_apply, v5_apply]
  rfl

/-- The summed masked squared residual of the plane (l, q). -/
theorem v17_apply (x0 x1 x2 : Arr) (l : Fin 16) (q : Fin 3) :
    val_main_v17 (F := Ideal) x0 x1 x2 (ix2 l q)
      = ∑ hw, (plane x2 l q hw * (plane x0 l q hw - val_main_v10 (F := Ideal) x0 x1 x2 (ix2 l q) * plane x1 l q hw))
          * (plane x0 l q hw - val_main_v10 (F := Ideal) x0 x1 x2 (ix2 l q) * plane x1 l q hw) := by
  unfold val_main_v17
  refine (hostReduceAdd_plane _ _ _ _ l q).trans ?_
  simp only [val_main_cst_4_apply, Ideal.ofBits_def, Ideal.ofBits_zero_f32, zero_add]
  rw [sum_plane]
  refine Finset.sum_congr rfl fun hw _ => ?_
  rw [val_main_v16_apply, val_main_v15_apply, val_main_v14_apply, val_main_v13_apply, val_main_v12_apply,
    val_main_v11_apply, idx11_12]
  rfl

/-- The reference's row value of sample l is the common row value, for real entries. -/
theorem row_eq (x0 x1 x2 : Arr) (h0 : ∀ i, IsReal (x0 i)) (h1 : ∀ i, IsReal (x1 i)) (h2 : ∀ i, IsReal (x2 i))
    (l : Fin 16) : val_main_v20 (F := Ideal) x0 x1 x2 (ix1 l) = rowValue x0 x1 x2 l := by
  rw [val_main_v20_apply]
  simp only [val_main_cst_6_apply, Ideal.ofBits_def, Ideal.ofBits_zero_f32, zero_add]
  unfold rowValue
  refine Finset.sum_congr rfl fun q _ => ?_
  rw [idx20, val_main_v19_apply, v17_apply, v18_apply, v10_apply]
  exact quot_eq (plane x0 l q) (plane x1 l q) (plane x2 l q) (fun hw => h0 _) (fun hw => h1 _) (fun hw => h2 _)

end Cert.RefSide

end
-- ==== Proof.KernelPieces.lean ====
/-
  What one run of the kernel body leaves behind, as pure terms of what it found. The body reads one block of each
  of the three inputs (window 0 the target, window 1 the estimate, window 2 the mask), forms for each of the 8
  samples and 3 channels of the block four sums over the block's 64 rows and 512 columns, and adds them to four
  8x3 accumulators that it carries from one grid point to the next; at the first of the 8 row tiles of a sample
  chunk it zeroes the accumulators first, and at the last it also writes the 8x1 output block from them.
-/
import proofs.«102406_j40819369181889_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem
open Facts₀ Facts

variable {F : FTy → Type} [FloatOps F]

/-- Per sample and channel of a block, the sum of estimate · (estimate · mask) over the block. -/
def blockV (x1 x2 : Vec F S8x3x64x512 .f32) : FVec F S8x3 .f32 :=
  k0_pay26 x1 x2 (k0_pay14 x1 x2) (k0_pay18 x1) (k0_pay20 x2)
/-- Per sample and channel of a block, the sum of target · (estimate · mask). -/
def blockNum (x0 x1 x2 : Vec F S8x3x64x512 .f32) : FVec F S8x3 .f32 :=
  k0_pay27 x1 x0 x2 (k0_pay15 x1 x0 x2) (k0_pay18 x1) (k0_pay19 x0) (k0_pay20 x2)
/-- Per sample and channel of a block, the sum of (mask · target) · target. -/
def blockCC (x0 x2 : Vec F S8x3x64x512 .f32) : FVec F S8x3 .f32 :=
  k0_pay28 x0 x2 (k0_pay16 x0 x2) (k0_pay19 x0) (k0_pay20 x2)
/-- Per sample and channel of a block, the sum of the mask. -/
def blockM (x2 : Vec F S8x3x64x512 .f32) : FVec F S8x3 .f32 :=
  k0_pay29 x2 (k0_pay17 x2) (k0_pay20 x2)

theorem zero4 : (![0, 0, 0, 0] : Fin S8x3x64x512.rank → Nat) = fun _ => 0 := by
  funext a; match a with | ⟨0, _⟩ => rfl | ⟨1, _⟩ => rfl | ⟨2, _⟩ => rfl | ⟨3, _⟩ => rfl
theorem zero2 : (![0, 0] : Fin S8x3.rank → Nat) = fun _ => 0 := by
  funext a; match a with | ⟨0, _⟩ => rfl | ⟨1, _⟩ => rfl
theorem zero2' : (![0, 0] : Fin S8x1.rank → Nat) = fun _ => 0 := by
  funext a; match a with | ⟨0, _⟩ => rfl | ⟨1, _⟩ => rfl

variable (c : Dev nD) (i : grid0.Coords)
  (arg2 : Memref sig .tc .vmem S8x3x64x512 .f32) (harg2 : arg2.IsWhole)
  (arg3 : Memref sig .tc .vmem S8x3x64x512 .f32) (harg3 : arg3.IsWhole)
  (arg4 : Memref sig .tc .vmem S8x3x64x512 .f32) (harg4 : arg4.IsWhole)
  (arg5 : Memref sig .tc .vmem S8x1 .f32) (harg5 : arg5.IsWhole)
  (arg6 : Memref sig .tc .vmem S8x3 .f32) (harg6 : arg6.IsWhole)
  (arg7 : Memref sig .tc .vmem S8x3 .f32) (harg7 : arg7.IsWhole)
  (arg8 : Memref sig .tc .vmem S8x3 .f32) (harg8 : arg8.IsWhole)
  (arg9 : Memref sig .tc .vmem S8x3 .f32) (harg9 : arg9.IsWhole)

/-- At a first point of a sample chunk (the accumulators are zeroed, then the block's sums added): accumulator 0 ends at its earlier contents plus this block's sums. -/
theorem scratch_A_0 (hc0 : cond0_0 i) (hc1 : ¬cond0_1 i) (x0 x1 x2 : Vec F S8x3x64x512 .f32) :
    sout0_A_0 c i arg2 harg2 arg3 harg3 arg4 harg4 arg5 harg5 arg6 harg6 arg7 harg7 arg8 harg8 arg9 harg9 hc0 hc1 x0 x1 x2 = k0_pay1 (blockV x1 x2) k0_pay6 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a first point of a sample chunk (the accumulators are zeroed, then the block's sums added): accumulator 1 ends at its earlier contents plus this block's sums. -/
theorem scratch_A_1 (hc0 : cond0_0 i) (hc1 : ¬cond0_1 i) (x0 x1 x2 : Vec F S8x3x64x512 .f32) :
    sout0_A_1 c i arg2 harg2 arg3 harg3 arg4 harg4 arg5 harg5 arg6 harg6 arg7 harg7 arg8 harg8 arg9 harg9 hc0 hc1 x0 x1 x2 = k0_pay2 (blockNum x0 x1 x2) k0_pay7 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a first point of a sample chunk (the accumulators are zeroed, then the block's sums added): accumulator 2 ends at its earlier contents plus this block's sums. -/
theorem scratch_A_2 (hc0 : cond0_0 i) (hc1 : ¬cond0_1 i) (x0 x1 x2 : Vec F S8x3x64x512 .f32) :
    sout0_A_2 c i arg2 harg2 arg3 harg3 arg4 harg4 arg5 harg5 arg6 harg6 arg7 harg7 arg8 harg8 arg9 harg9 hc0 hc1 x0 x1 x2 = k0_pay3 (blockCC x0 x2) k0_pay8 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a first point of a sample chunk (the accumulators are zeroed, then the block's sums added): accumulator 3 ends at its earlier contents plus this block's sums. -/
theorem scratch_A_3 (hc0 : cond0_0 i) (hc1 : ¬cond0_1 i) (x0 x1 x2 : Vec F S8x3x64x512 .f32) :
    sout0_A_3 c i arg2 harg2 arg3 harg3 arg4 harg4 arg5 harg5 arg6 harg6 arg7 harg7 arg8 harg8 arg9 harg9 hc0 hc1 x0 x1 x2 = k0_pay4 (blockM x2) k0_pay9 := by
  unfold sout0_A_3
  rw [View.read_writes_eq_canon _ _ _ (scover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a middle point (the block's sums are added to what the point before left): accumulator 0 ends at its earlier contents plus this block's sums. -/
theorem scratch_B_0 (hc0 : ¬cond0_0 i) (hc1 : ¬cond0_1 i) (x0 x1 x2 : Vec F S8x3x64x512 .f32) (xs0 xs1 xs2 xs3 : Vec F S8x3 .f32) :
    sout0_B_0 c i arg2 harg2 arg3 harg3 arg4 harg4 arg5 harg5 arg6 harg6 arg7 harg7 arg8 harg8 arg9 harg9 hc0 hc1 x0 x1 x2 xs0 xs1 xs2 xs3 = k0_pay1 (blockV x1 x2) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a middle point (the block's sums are added to what the point before left): accumulator 1 ends at its earlier contents plus this block's sums. -/
theorem scratch_B_1 (hc0 : ¬cond0_0 i) (hc1 : ¬cond0_1 i) (x0 x1 x2 : Vec F S8x3x64x512 .f32) (xs0 xs1 xs2 xs3 : Vec F S8x3 .f32) :
    sout0_B_1 c i arg2 harg2 arg3 harg3 arg4 harg4 arg5 harg5 arg6 harg6 arg7 harg7 arg8 harg8 arg9 harg9 hc0 hc1 x0 x1 x2 xs0 xs1 xs2 xs3 = k0_pay2 (blockNum x0 x1 x2) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a middle point (the block's sums are added to what the point before left): accumulator 2 ends at its earlier contents plus this block's sums. -/
theorem scratch_B_2 (hc0 : ¬cond0_0 i) (hc1 : ¬cond0_1 i) (x0 x1 x2 : Vec F S8x3x64x512 .f32) (xs0 xs1 xs2 xs3 : Vec F S8x3 .f32) :
    sout0_B_2 c i arg2 harg2 arg3 harg3 arg4 harg4 arg5 harg5 arg6 harg6 arg7 harg7 arg8 harg8 arg9 harg9 hc0 hc1 x0 x1 x2 xs0 xs1 xs2 xs3 = k0_pay3 (blockCC x0 x2) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a middle point (the block's sums are added to what the point before left): accumulator 3 ends at its earlier contents plus this block's sums. -/
theorem scratch_B_3 (hc0 : ¬cond0_0 i) (hc1 : ¬cond0_1 i) (x0 x1 x2 : Vec F S8x3x64x512 .f32) (xs0 xs1 xs2 xs3 : Vec F S8x3 .f32) :
    sout0_B_3 c i arg2 harg2 arg3 harg3 arg4 harg4 arg5 harg5 arg6 harg6 arg7 harg7 arg8 harg8 arg9 harg9 hc0 hc1 x0 x1 x2 xs0 xs1 xs2 xs3 = k0_pay4 (blockM x2) xs3 := by
  unfold sout0_B_3
  rw [View.read_writes_eq_canon _ _ _ (scover0_B_3 c i arg2 harg2 arg3 harg3 arg4 harg4 arg5 harg5 arg6 harg6 arg7 harg7 arg8 harg8 arg9 harg9 hc0 hc1 x0 x1 x2 xs0 xs1 xs2 xs3)]
  unfold kernelRun0_B
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a last point of a sample chunk (the block's sums are added to what the point before left): accumulator 0 ends at its earlier contents plus this block's sums. -/
theorem scratch_C_0 (hc0 : ¬cond0_0 i) (hc1 : cond0_1 i) (x0 x1 x2 : Vec F S8x3x64x512 .f32) (xs0 xs1 xs2 xs3 : Vec F S8x3 .f32) :
    sout0_C_0 c i arg2 harg2 arg3 harg3 arg4 harg4 arg5 harg5 arg6 harg6 arg7 harg7 arg8 harg8 arg9 harg9 hc0 hc1 x0 x1 x2 xs0 xs1 xs2 xs3 = k0_pay1 (blockV x1 x2) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a last point of a sample chunk (the block's sums are added to what the point before left): accumulator 1 ends at its earlier contents plus this block's sums. -/
theorem scratch_C_1 (hc0 : ¬cond0_0 i) (hc1 : cond0_1 i) (x0 x1 x2 : Vec F S8x3x64x512 .f32) (xs0 xs1 xs2 xs3 : Vec F S8x3 .f32) :
    sout0_C_1 c i arg2 harg2 arg3 harg3 arg4 harg4 arg5 harg5 arg6 harg6 arg7 harg7 arg8 harg8 arg9 harg9 hc0 hc1 x0 x1 x2 xs0 xs1 xs2 xs3 = k0_pay2 (blockNum x0 x1 x2) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a last point of a sample chunk (the block's sums are added to what the point before left): accumulator 2 ends at its earlier contents plus this block's sums. -/
theorem scratch_C_2 (hc0 : ¬cond0_0 i) (hc1 : cond0_1 i) (x0 x1 x2 : Vec F S8x3x64x512 .f32) (xs0 xs1 xs2 xs3 : Vec F S8x3 .f32) :
    sout0_C_2 c i arg2 harg2 arg3 harg3 arg4 harg4 arg5 harg5 arg6 harg6 arg7 harg7 arg8 harg8 arg9 harg9 hc0 hc1 x0 x1 x2 xs0 xs1 xs2 xs3 = k0_pay3 (blockCC x0 x2) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a last point of a sample chunk (the block's sums are added to what the point before left): accumulator 3 ends at its earlier contents plus this block's sums. -/
theorem scratch_C_3 (hc0 : ¬cond0_0 i) (hc1 : cond0_1 i) (x0 x1 x2 : Vec F S8x3x64x512 .f32) (xs0 xs1 xs2 xs3 : Vec F S8x3 .f32) :
    sout0_C_3 c i arg2 harg2 arg3 harg3 arg4 harg4 arg5 harg5 arg6 harg6 arg7 harg7 arg8 harg8 arg9 harg9 hc0 hc1 x0 x1 x2 xs0 xs1 xs2 xs3 = k0_pay4 (blockM x2) xs3 := by
  unfold sout0_C_3
  rw [View.read_writes_eq_canon _ _ _ (scover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S8x3) zero2]
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

/-- At a last point the output block is the closing formula of the four accumulators as that point leaves them. -/
theorem out_C (hc0 : ¬cond0_0 i) (hc1 : cond0_1 i) (x0 x1 x2 : Vec F S8x3x64x512 .f32) (xs0 xs1 xs2 xs3 : Vec F S8x3 .f32) :
    out0_C_3 c i arg2 harg2 arg3 harg3 arg4 harg4 arg5 harg5 arg6 harg6 arg7 harg7 arg8 harg8 arg9 harg9 hc0 hc1 x0 x1 x2 xs0 xs1 xs2 xs3
      = k0_pay5 (k0_pay1 (blockV x1 x2) xs0) (k0_pay2 (blockNum x0 x1 x2) xs1) (k0_pay3 (blockCC x0 x2) xs2) (k0_pay4 (blockM x2) xs3) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2 xs3)]
  unfold kernelRun0_C
  dsimp only
  sl_unfold_words
  rw [View.canon_cons_unit_zero (S := S8x1) zero2']
  simp only [View.readAt_eq_ld, harg2.read_unread, harg3.read_unread, harg4.read_unread, harg6.read_unread,
    harg7.read_unread, harg8.read_unread, harg9.read_unread, View.ld_unit_zero (S := S8x3x64x512) zero4,
    View.ld_unit_zero (S := S8x3) zero2, View.readCov_unit_zero (S := S8x3) _ zero2]
  rfl

end Cert.KernelIdeal.Pieces

end
-- ==== Proof.LibBlockReads.lean ====
/-
  Vector operations of a kernel body that forms per-sample, per-channel sums of a rank-4 block [a, b, m, n], read at
  an index, generic in the extents (library imports only):
  a channel sliced out of the block and cast to [a, m, n]; at the ideal values the lane sum of [a, m, n] over its
  last axis and the sum of the keepdims array [a, m, 1] over its middle axis; the cast [a, m] -> [a, m, 1] between
  them; and three [a, 1] columns joined along axis 1 into [a, 3].
-/
import Idealize.ShloMosaic.Lib.Pipeline.Value
import Idealize.ShloMosaic.Lib.ValueIdx
import Idealize.ShloMosaic.PureOps.Ideal.Laws

noncomputable section

open scoped BigOperators

namespace Idealize.ShloMosaic.BlockReads

open Idealize.ShloMosaic Idealize.ShloMosaic.ValueIdx

variable {α : Type}

/-! ## One channel of a block -/

/-- Channel q of an [a, b, m, n] array, sliced to [a, 1, m, n] and cast to [a, m, n], read at (p, r, w), is the
    array's entry (p, q, r, w). -/
theorem channel_apply {a b m n : Nat} (q : Fin b) (x : (⟨4, ![a, b, m, n]⟩ : Shape).Idx → α)
    (hs : (⟨4, ![a, b, m, n]⟩ : Shape).Slices ![0, q.val, 0, 0] ⟨4, ![a, 1, m, n]⟩)
    (hc : (⟨4, ![a, 1, m, n]⟩ : Shape).ShapeCasts ⟨3, ![a, m, n]⟩) (p : Fin a) (r : Fin m) (w : Fin n) :
    shapeCast ⟨3, ![a, m, n]⟩ (extractStridedSlice ⟨4, ![a, 1, m, n]⟩ ![0, q.val, 0, 0] x hs) hc (ix3 p r w)
      = x (ix4 p q r w) := by
  refine (shapeCast_apply _ hc (ix3 p r w) (ix4 p (0 : Fin 1) r w) (by
    rw [Shape.rowMajor_val_four, Shape.rowMajor_val_three]
    show ((p.val * 1 + 0) * m + r.val) * n + w.val = (p.val * m + r.val) * n + w.val
    rw [Nat.mul_one, Nat.add_zero])).trans ?_
  refine extractStridedSlice_apply _ x hs _ (ix4 p q r w) fun d => ?_
  match d with
  | ⟨0, _⟩ => exact (Nat.zero_add _).symm
  | ⟨1, _⟩ => exact (Nat.add_zero _).symm
  | ⟨2, _⟩ => exact (Nat.zero_add _).symm
  | ⟨3, _⟩ => exact (Nat.zero_add _).symm

/-! ## The two sums of a plane -/

/-- The index a reduction over the last axis of [a, m, n] inserts lane w into is (p, r, w). -/
theorem lift_lane {a m n : Nat} (h : (⟨3, ![a, m, n]⟩ : Shape).Reduces [2] ⟨2, ![a, m]⟩)
    (p : Fin a) (r : Fin m) (w : Fin n) : h.lift (ix2 p r) w = ix3 p r w := by
  funext d
  apply Fin.ext
  match d with
  | ⟨0, _⟩ => rfl
  | ⟨1, _⟩ => rfl
  | ⟨2, _⟩ => rfl

/-- At the ideal values the lane sum of an [a, m, n] array, read at (p, r), is the sum over the n lanes. -/
theorem multiReduction_add_lane {φ : FTy} {a m n : Nat} (src : FVec Ideal ⟨3, ![a, m, n]⟩ φ) (acc : BitVec φ.bits)
    (h : (⟨3, ![a, m, n]⟩ : Shape).Reduces [2] ⟨2, ![a, m]⟩) (hφ : FKind.Formats φ)
    (hacc : acc = FKind.add.neutral φ hφ) (p : Fin a) (r : Fin m) :
    multiReduction .add [2] ⟨2, ![a, m]⟩ src acc h hφ hacc (ix2 p r) = ∑ w : Fin n, src (ix3 p r w) :=
  (Ideal.multiReduction_add_single src acc h hφ hacc (ix2 p r)).trans
    (Finset.sum_congr rfl fun w _ => congrArg src (lift_lane h p r w))

/-- The index a reduction over the middle axis of [a, m, 1] inserts row r into is (p, r, u). -/
theorem lift_rows {a m : Nat} (h : (⟨3, ![a, m, 1]⟩ : Shape).Reduces [1] ⟨2, ![a, 1]⟩)
    (p : Fin a) (u : Fin 1) (r : Fin m) : h.lift (ix2 p u) r = ix3 p r u := by
  funext d
  apply Fin.ext
  match d with
  | ⟨0, _⟩ => rfl
  | ⟨1, _⟩ => rfl
  | ⟨2, _⟩ => rfl

/-- At the ideal values the sum of a keepdims array [a, m, 1] over its middle axis, read at (p, u), is the sum over
    the m rows. -/
theorem multiReduction_add_rows {φ : FTy} {a m : Nat} (src : FVec Ideal ⟨3, ![a, m, 1]⟩ φ) (acc : BitVec φ.bits)
    (h : (⟨3, ![a, m, 1]⟩ : Shape).Reduces [1] ⟨2, ![a, 1]⟩) (hφ : FKind.Formats φ)
    (hacc : acc = FKind.add.neutral φ hφ) (p : Fin a) (u : Fin 1) :
    multiReduction .add [1] ⟨2, ![a, 1]⟩ src acc h hφ hacc (ix2 p u) = ∑ r : Fin m, src (ix3 p r u) :=
  (Ideal.multiReduction_add_single src acc h hφ hacc (ix2 p u)).trans
    (Finset.sum_congr rfl fun r _ => congrArg src (lift_rows h p u r))

/-- An [a, m] array cast to the keepdims array [a, m, 1], read at (p, r, u), is entry (p, r). -/
theorem shapeCast_am_am1_apply {a m : Nat} (x : (⟨2, ![a, m]⟩ : Shape).Idx → α)
    (h : (⟨2, ![a, m]⟩ : Shape).ShapeCasts ⟨3, ![a, m, 1]⟩) (p : Fin a) (r : Fin m) (u : Fin 1) :
    shapeCast ⟨3, ![a, m, 1]⟩ x h (ix3 p r u) = x (ix2 p r) :=
  shapeCast_apply x h _ _ (by
    have hu : u.val = 0 := by omega
    rw [Shape.rowMajor_val_three, Shape.rowMajor_val_two]
    show p.val * m + r.val = (p.val * m + r.val) * 1 + u.val
    rw [hu, Nat.mul_one, Nat.add_zero])

/-- The sum over a plane as the kernel body takes it: the lane sums of an [a, m, n] array, kept as [a, m, 1], summed
    over the rows; read at (p, u) at the ideal values it is the double sum over the rows and lanes. -/
theorem plane_sum_apply {φ : FTy} {a m n : Nat} (src : FVec Ideal ⟨3, ![a, m, n]⟩ φ) (acc acc' : BitVec φ.bits)
    (h2 : (⟨3, ![a, m, n]⟩ : Shape).Reduces [2] ⟨2, ![a, m]⟩) (hc : (⟨2, ![a, m]⟩ : Shape).ShapeCasts ⟨3, ![a, m, 1]⟩)
    (h1 : (⟨3, ![a, m, 1]⟩ : Shape).Reduces [1] ⟨2, ![a, 1]⟩) (hφ hφ' : FKind.Formats φ)
    (hacc : acc = FKind.add.neutral φ hφ) (hacc' : acc' = FKind.add.neutral φ hφ') (p : Fin a) (u : Fin 1) :
    multiReduction .add [1] ⟨2, ![a, 1]⟩
        (shapeCast ⟨3, ![a, m, 1]⟩ (multiReduction .add [2] ⟨2, ![a, m]⟩ src acc h2 hφ hacc) hc) acc' h1 hφ' hacc' (ix2 p u)
      = ∑ r : Fin m, ∑ w : Fin n, src (ix3 p r w) :=
  (multiReduction_add_rows _ acc' h1 hφ' hacc' p u).trans
    (Finset.sum_congr rfl fun r _ =>
      (shapeCast_am_am1_apply _ hc p r u).trans (multiReduction_add_lane src acc h2 hφ hacc p r))

/-! ## Three columns joined -/

/-- One of three values, by a column number below 3. -/
def pick3 {β : Type} (x0 x1 x2 : β) (q : Fin 3) : β :=
  match q with
  | ⟨0, _⟩ => x0
  | ⟨1, _⟩ => x1
  | ⟨2, _⟩ => x2

/-- Three [a, 1] columns joined along axis 1 into [a, 3], read at (p, q): column q at (p, 0). -/
theorem concat3_columns_apply {a : Nat} (x0 x1 x2 : (⟨2, ![a, 1]⟩ : Shape).Idx → α)
    (hc : Shape.Concatenates (([⟨⟨2, ![a, 1]⟩, x0⟩, ⟨⟨2, ![a, 1]⟩, x1⟩, ⟨⟨2, ![a, 1]⟩, x2⟩] :
      List ((s : Shape) × (s.Idx → α))).map (·.1)) ⟨2, ![a, 3]⟩ 1)
    (p : Fin a) (q : Fin 3) :
    concatenate ⟨2, ![a, 3]⟩ 1 [⟨⟨2, ![a, 1]⟩, x0⟩, ⟨⟨2, ![a, 1]⟩, x1⟩, ⟨⟨2, ![a, 1]⟩, x2⟩] hc (ix2 p q)
      = pick3 (x0 (ix2 p (0 : Fin 1))) (x1 (ix2 p (0 : Fin 1))) (x2 (ix2 p (0 : Fin 1))) q := by
  have hi : ∀ (c : Fin 3) (b : Fin 2), b.cast rfl ≠ (1 : Fin 2) →
      ((ix2 p (0 : Fin 1) : (⟨2, ![a, 1]⟩ : Shape).Idx) b).val
        = ((ix2 p c : (⟨2, ![a, 3]⟩ : Shape).Idx) (b.cast rfl)).val := by
    intro c b hb
    match b with
    | ⟨0, _⟩ => rfl
    | ⟨1, _⟩ => exact absurd rfl hb
  match q with
  | ⟨0, _⟩ =>
    exact concatenate_apply_piece 1 _ hc _ 0 (by show 0 < 3; omega) _ x0 rfl rfl 0 rfl (ix2 p (0 : Fin 1)) (hi _) rfl
  | ⟨1, _⟩ =>
    exact concatenate_apply_piece 1 _ hc _ 1 (by show 1 < 3; omega) _ x1 rfl rfl 1 rfl (ix2 p (0 : Fin 1)) (hi _) rfl
  | ⟨2, _⟩ =>
    exact concatenate_apply_piece 1 _ hc _ 2 (by show 2 < 3; omega) _ x2 rfl rfl 2 rfl (ix2 p (0 : Fin 1)) (hi _) rfl

end Idealize.ShloMosaic.BlockReads

end
-- ==== Proof.BlockSums.lean ====
/-
  The four sums the kernel body forms from one block, at the ideal values, entry by entry. For sample p and channel q
  of the block each is a double sum over the block's 64 rows and 512 lanes: the body slices channel q out of each
  input block, multiplies pointwise, sums the lanes, then the rows, and joins the three channels' columns.
-/
import proofs.«102406_j40819369181889_2_alg».proof.Proof.KernelPieces
import proofs.«102406_j40819369181889_2_alg».proof.Proof.LibBlockReads

noncomputable section

open scoped BigOperators

namespace Cert.KernelIdeal.BlockSums

open Cert.KernelIdeal Cert.KernelIdeal.Gen Cert.KernelIdeal.Pieces
open Idealize.ShloMosaic Idealize.ShloMosaic.ValueIdx Idealize.ShloMosaic.BlockReads

/-! ## A channel of an input block -/

theorem pay10_apply (x : Vec Ideal S8x3x64x512 .f32) (p : Fin 8) (r : Fin 64) (w : Fin 512) :
    k0_pay10 x (ix3 p r w) = x (ix4 p (0 : Fin 3) r w) := by
  unfold k0_pay10
  exact channel_apply (0 : Fin 3) x _ _ p r w
theorem pay18_apply (x : Vec Ideal S8x3x64x512 .f32) (p : Fin 8) (r : Fin 64) (w : Fin 512) :
    k0_pay18 x (ix3 p r w) = x (ix4 p (1 : Fin 3) r w) := by
  unfold k0_pay18
  exact channel_apply (1 : Fin 3) x _ _ p r w
theorem pay22_apply (x : Vec Ideal S8x3x64x512 .f32) (p : Fin 8) (r : Fin 64) (w : Fin 512) :
    k0_pay22 x (ix3 p r w) = x (ix4 p (2 : Fin 3) r w) := by
  unfold k0_pay22
  exact channel_apply (2 : Fin 3) x _ _ p r w
theorem pay11_apply (x : Vec Ideal S8x3x64x512 .f32) (p : Fin 8) (r : Fin 64) (w : Fin 512) :
    k0_pay11 x (ix3 p r w) = x (ix4 p (0 : Fin 3) r w) := by
  unfold k0_pay11
  exact channel_apply (0 : Fin 3) x _ _ p r w
theorem pay19_apply (x : Vec Ideal S8x3x64x512 .f32) (p : Fin 8) (r : Fin 64) (w : Fin 512) :
    k0_pay19 x (ix3 p r w) = x (ix4 p (1 : Fin 3) r w) := by
  unfold k0_pay19
  exact channel_apply (1 : Fin 3) x _ _ p r w
theorem pay23_apply (x : Vec Ideal S8x3x64x512 .f32) (p : Fin 8) (r : Fin 64) (w : Fin 512) :
    k0_pay23 x (ix3 p r w) = x (ix4 p (2 : Fin 3) r w) := by
  unfold k0_pay23
  exact channel_apply (2 : Fin 3) x _ _ p r w
theorem pay12_apply (x : Vec Ideal S8x3x64x512 .f32) (p : Fin 8) (r : Fin 64) (w : Fin 512) :
    k0_pay12 x (ix3 p r w) = x (ix4 p (0 : Fin 3) r w) := by
  unfold k0_pay12
  exact channel_apply (0 : Fin 3) x _ _ p r w
theorem pay20_apply (x : Vec Ideal S8x3x64x512 .f32) (p : Fin 8) (r : Fin 64) (w : Fin 512) :
    k0_pay20 x (ix3 p r w) = x (ix4 p (1 : Fin 3) r w) := by
  unfold k0_pay20
  exact channel_apply (1 : Fin 3) x _ _ p r w
theorem pay24_apply (x : Vec Ideal S8x3x64x512 .f32) (p : Fin 8) (r : Fin 64) (w : Fin 512) :
    k0_pay24 x (ix3 p r w) = x (ix4 p (2 : Fin 3) r w) := by
  unfold k0_pay24
  exact channel_apply (2 : Fin 3) x _ _ p r w

theorem pick3_zero {β : Type} (a b c : β) : pick3 a b c (0 : Fin 3) = a := rfl
theorem pick3_one {β : Type} (a b c : β) : pick3 a b c (1 : Fin 3) = b := rfl
theorem pick3_two {β : Type} (a b c : β) : pick3 a b c (2 : Fin 3) = c := rfl

/-! ## The four sums of a block -/

theorem blockV_ch0 (x1 x2 : Vec Ideal S8x3x64x512 .f32) (p : Fin 8) :
    blockV x1 x2 (ix2 p (0 : Fin 3)) = ∑ r : Fin 64, ∑ w : Fin 512, x1 (ix4 p (0 : Fin 3) r w) * (x1 (ix4 p (0 : Fin 3) r w) * x2 (ix4 p (0 : Fin 3) r w)) := by
  unfold blockV k0_pay26
  refine (concat3_columns_apply _ _ _ _ p (0 : Fin 3)).trans ?_
  rw [pick3_zero]
  unfold k0_pay14
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockV_ch1 (x1 x2 : Vec Ideal S8x3x64x512 .f32) (p : Fin 8) :
    blockV x1 x2 (ix2 p (1 : Fin 3)) = ∑ r : Fin 64, ∑ w : Fin 512, x1 (ix4 p (1 : Fin 3) r w) * (x1 (ix4 p (1 : Fin 3) r w) * x2 (ix4 p (1 : Fin 3) r w)) := by
  unfold blockV k0_pay26
  refine (concat3_columns_apply _ _ _ _ p (1 : Fin 3)).trans ?_
  rw [pick3_one]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockV_ch2 (x1 x2 : Vec Ideal S8x3x64x512 .f32) (p : Fin 8) :
    blockV x1 x2 (ix2 p (2 : Fin 3)) = ∑ r : Fin 64, ∑ w : Fin 512, x1 (ix4 p (2 : Fin 3) r w) * (x1 (ix4 p (2 : Fin 3) r w) * x2 (ix4 p (2 : Fin 3) r w)) := by
  unfold blockV k0_pay26
  refine (concat3_columns_apply _ _ _ _ p (2 : Fin 3)).trans ?_
  rw [pick3_two]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

/-- Entry (p, q) of the block's sums of estimate · (estimate · mask): the double sum over the block's 64 rows and 512 lanes. -/
theorem blockV_apply (x1 x2 : Vec Ideal S8x3x64x512 .f32) (p : Fin 8) (q : Fin 3) :
    blockV x1 x2 (ix2 p q) = ∑ r : Fin 64, ∑ w : Fin 512, x1 (ix4 p q r w) * (x1 (ix4 p q r w) * x2 (ix4 p q r w)) := by
  match q with
  | ⟨0, _⟩ => exact blockV_ch0 x1 x2 p
  | ⟨1, _⟩ => exact blockV_ch1 x1 x2 p
  | ⟨2, _⟩ => exact blockV_ch2 x1 x2 p

theorem blockNum_ch0 (x0 x1 x2 : Vec Ideal S8x3x64x512 .f32) (p : Fin 8) :
    blockNum x0 x1 x2 (ix2 p (0 : Fin 3)) = ∑ r : Fin 64, ∑ w : Fin 512, x0 (ix4 p (0 : Fin 3) r w) * (x1 (ix4 p (0 : Fin 3) r w) * x2 (ix4 p (0 : Fin 3) r w)) := by
  unfold blockNum k0_pay27
  refine (concat3_columns_apply _ _ _ _ p (0 : Fin 3)).trans ?_
  rw [pick3_zero]
  unfold k0_pay15
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockNum_ch1 (x0 x1 x2 : Vec Ideal S8x3x64x512 .f32) (p : Fin 8) :
    blockNum x0 x1 x2 (ix2 p (1 : Fin 3)) = ∑ r : Fin 64, ∑ w : Fin 512, x0 (ix4 p (1 : Fin 3) r w) * (x1 (ix4 p (1 : Fin 3) r w) * x2 (ix4 p (1 : Fin 3) r w)) := by
  unfold blockNum k0_pay27
  refine (concat3_columns_apply _ _ _ _ p (1 : Fin 3)).trans ?_
  rw [pick3_one]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockNum_ch2 (x0 x1 x2 : Vec Ideal S8x3x64x512 .f32) (p : Fin 8) :
    blockNum x0 x1 x2 (ix2 p (2 : Fin 3)) = ∑ r : Fin 64, ∑ w : Fin 512, x0 (ix4 p (2 : Fin 3) r w) * (x1 (ix4 p (2 : Fin 3) r w) * x2 (ix4 p (2 : Fin 3) r w)) := by
  unfold blockNum k0_pay27
  refine (concat3_columns_apply _ _ _ _ p (2 : Fin 3)).trans ?_
  rw [pick3_two]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

/-- Entry (p, q) of the block's sums of target · (estimate · mask): the double sum over the block's 64 rows and 512 lanes. -/
theorem blockNum_apply (x0 x1 x2 : Vec Ideal S8x3x64x512 .f32) (p : Fin 8) (q : Fin 3) :
    blockNum x0 x1 x2 (ix2 p q) = ∑ r : Fin 64, ∑ w : Fin 512, x0 (ix4 p q r w) * (x1 (ix4 p q r w) * x2 (ix4 p q r w)) := by
  match q with
  | ⟨0, _⟩ => exact blockNum_ch0 x0 x1 x2 p
  | ⟨1, _⟩ => exact blockNum_ch1 x0 x1 x2 p
  | ⟨2, _⟩ => exact blockNum_ch2 x0 x1 x2 p

theorem blockCC_ch0 (x0 x2 : Vec Ideal S8x3x64x512 .f32) (p : Fin 8) :
    blockCC x0 x2 (ix2 p (0 : Fin 3)) = ∑ r : Fin 64, ∑ w : Fin 512, (x2 (ix4 p (0 : Fin 3) r w) * x0 (ix4 p (0 : Fin 3) r w)) * x0 (ix4 p (0 : Fin 3) r w) := by
  unfold blockCC k0_pay28
  refine (concat3_columns_apply _ _ _ _ p (0 : Fin 3)).trans ?_
  rw [pick3_zero]
  unfold k0_pay16
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockCC_ch1 (x0 x2 : Vec Ideal S8x3x64x512 .f32) (p : Fin 8) :
    blockCC x0 x2 (ix2 p (1 : Fin 3)) = ∑ r : Fin 64, ∑ w : Fin 512, (x2 (ix4 p (1 : Fin 3) r w) * x0 (ix4 p (1 : Fin 3) r w)) * x0 (ix4 p (1 : Fin 3) r w) := by
  unfold blockCC k0_pay28
  refine (concat3_columns_apply _ _ _ _ p (1 : Fin 3)).trans ?_
  rw [pick3_one]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockCC_ch2 (x0 x2 : Vec Ideal S8x3x64x512 .f32) (p : Fin 8) :
    blockCC x0 x2 (ix2 p (2 : Fin 3)) = ∑ r : Fin 64, ∑ w : Fin 512, (x2 (ix4 p (2 : Fin 3) r w) * x0 (ix4 p (2 : Fin 3) r w)) * x0 (ix4 p (2 : Fin 3) r w) := by
  unfold blockCC k0_pay28
  refine (concat3_columns_apply _ _ _ _ p (2 : Fin 3)).trans ?_
  rw [pick3_two]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

/-- Entry (p, q) of the block's sums of (mask · target) · target: the double sum over the block's 64 rows and 512 lanes. -/
theorem blockCC_apply (x0 x2 : Vec Ideal S8x3x64x512 .f32) (p : Fin 8) (q : Fin 3) :
    blockCC x0 x2 (ix2 p q) = ∑ r : Fin 64, ∑ w : Fin 512, (x2 (ix4 p q r w) * x0 (ix4 p q r w)) * x0 (ix4 p q r w) := by
  match q with
  | ⟨0, _⟩ => exact blockCC_ch0 x0 x2 p
  | ⟨1, _⟩ => exact blockCC_ch1 x0 x2 p
  | ⟨2, _⟩ => exact blockCC_ch2 x0 x2 p

theorem blockM_ch0 (x2 : Vec Ideal S8x3x64x512 .f32) (p : Fin 8) :
    blockM x2 (ix2 p (0 : Fin 3)) = ∑ r : Fin 64, ∑ w : Fin 512, x2 (ix4 p (0 : Fin 3) r w) := by
  unfold blockM k0_pay29
  refine (concat3_columns_apply _ _ _ _ p (0 : Fin 3)).trans ?_
  rw [pick3_zero]
  unfold k0_pay17
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockM_ch1 (x2 : Vec Ideal S8x3x64x512 .f32) (p : Fin 8) :
    blockM x2 (ix2 p (1 : Fin 3)) = ∑ r : Fin 64, ∑ w : Fin 512, x2 (ix4 p (1 : Fin 3) r w) := by
  unfold blockM k0_pay29
  refine (concat3_columns_apply _ _ _ _ p (1 : Fin 3)).trans ?_
  rw [pick3_one]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

theorem blockM_ch2 (x2 : Vec Ideal S8x3x64x512 .f32) (p : Fin 8) :
    blockM x2 (ix2 p (2 : Fin 3)) = ∑ r : Fin 64, ∑ w : Fin 512, x2 (ix4 p (2 : Fin 3) r w) := by
  unfold blockM k0_pay29
  refine (concat3_columns_apply _ _ _ _ p (2 : Fin 3)).trans ?_
  rw [pick3_two]
  refine (plane_sum_apply _ _ _ _ _ _ _ _ _ _ p (0 : Fin 1)).trans ?_
  refine Finset.sum_congr rfl fun r _ => Finset.sum_congr rfl fun w _ => ?_
  simp only [mulf_apply, k0_pay13, k0_pay21, k0_pay25, pay10_apply, pay11_apply, pay12_apply, pay18_apply, pay19_apply, pay20_apply, pay22_apply, pay23_apply, pay24_apply]

/-- Entry (p, q) of the block's sums of the mask: the double sum over the block's 64 rows and 512 lanes. -/
theorem blockM_apply (x2 : Vec Ideal S8x3x64x512 .f32) (p : Fin 8) (q : Fin 3) :
    blockM x2 (ix2 p q) = ∑ r : Fin 64, ∑ w : Fin 512, x2 (ix4 p q r w) := by
  match q with
  | ⟨0, _⟩ => exact blockM_ch0 x2 p
  | ⟨1, _⟩ => exact blockM_ch1 x2 p
  | ⟨2, _⟩ => exact blockM_ch2 x2 p

end Cert.KernelIdeal.BlockSums

end
-- ==== Proof.LibRunningSum.lean ====
/-
  A running sum over the points of a grid.

  If a value starts at `z + s 0` and every later point `n + 1` adds `s (n + 1)` to what the point before left, then
  after point `n` it is `z` plus the sum of `s t` over the points `t ≤ n`, and after the last point `z` plus the sum over
  all points. Addition only needs to be commutative and associative, so this holds on the extended reals as well.
-/
import Mathlib.Algebra.BigOperators.Fin
import Mathlib.Data.Fintype.Basic

open scoped BigOperators

namespace Cert.RunningSum

/-- After point `n` the running value is `z` plus the terms of the points up to `n`. -/
theorem running_sum {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩) :
    ∀ (n : ℕ) (h : n < N), A n h = z + ∑ t ∈ Finset.univ.filter (fun t : Fin N => t.val ≤ n), s t := by
  intro n
  induction n with
  | zero =>
    intro h
    have e : Finset.univ.filter (fun t : Fin N => t.val ≤ 0) = {⟨0, h⟩} := by
      ext t
      simp only [Finset.mem_filter, Finset.mem_univ, true_and, Finset.mem_singleton, Fin.ext_iff]
      omega
    rw [h0 h, e, Finset.sum_singleton]
  | succ n ih =>
    intro h
    have e : Finset.univ.filter (fun t : Fin N => t.val ≤ n + 1)
        = insert ⟨n + 1, h⟩ (Finset.univ.filter (fun t : Fin N => t.val ≤ n)) := by
      ext t
      simp only [Finset.mem_filter, Finset.mem_univ, true_and, Finset.mem_insert, Fin.ext_iff]
      omega
    have hn : (⟨n + 1, h⟩ : Fin N) ∉ Finset.univ.filter (fun t : Fin N => t.val ≤ n) := by
      simp only [Finset.mem_filter, Finset.mem_univ, true_and]
      omega
    rw [hs n h, ih (Nat.lt_of_succ_lt h), e, Finset.sum_insert hn, add_assoc]
    exact congrArg (z + ·) (add_comm _ _)

/-- After the last point the running value is `z` plus the terms of all points. -/
theorem running_sum_last {M : Type*} [AddCommMonoid M] {N : ℕ} (s : Fin N → M) (z : M) (A : (n : ℕ) → n < N → M)
    (h0 : ∀ h, A 0 h = z + s ⟨0, h⟩)
    (hs : ∀ n (h : n + 1 < N), A (n + 1) h = A n (Nat.lt_of_succ_lt h) + s ⟨n + 1, h⟩)
    (n : ℕ) (h : n < N) (hlast : n + 1 = N) : A n h = z + ∑ t : Fin N, s t := by
  rw [running_sum s z A h0 hs n h]
  congr 1
  refine Finset.sum_congr (Finset.filter_true_of_mem fun t _ => ?_) fun _ _ => rfl
  have := t.isLt
  omega

end Cert.RunningSum
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.Accumulate.lean ====
/-
  What the four accumulators and the output block hold after each grid point. The grid has 16 points t = 8·i + j:
  sample chunk i (8 samples) and row tile j (64 rows). Accumulator k restarts at j = 0 and adds one block's sums at
  every point, so after the last tile it holds, for each sample and channel of the chunk, the sum over the whole
  512 x 512 plane; the output block is then written from the four accumulators.
-/
import proofs.«102406_j40819369181889_2_alg».proof.Proof.BlockSums
import proofs.«102406_j40819369181889_2_alg».proof.Proof.LibRunningSum
import proofs.«102406_j40819369181889_2_alg».proof.Proof.LibUnitAxisSums
import proofs.«102406_j40819369181889_2_alg».proof.Proof.Spec

set_option maxRecDepth 16384

noncomputable section

open scoped BigOperators

namespace Cert.KernelIdeal.Accumulate

open Cert.KernelIdeal Cert.KernelIdeal.Gen Cert.KernelIdeal.Pieces Cert.KernelIdeal.BlockSums
open Idealize.ShloMosaic Idealize.ShloMosaic.TcCoe Idealize.ShloMosaic.ValueIdx Idealize.SL.Sem

variable (m : (ℓ : Loc nD τ sig) → Buf (Elt Ideal) ℓ) (c : Dev nD)

/-- The four sums of the blocks the windows hold at point t. -/
def stepV (t : Fin cfg0.N) : FVec Ideal S8x3 .f32 := blockV (iblk m c 1 t) (iblk m c 2 t)
def stepNum (t : Fin cfg0.N) : FVec Ideal S8x3 .f32 := blockNum (iblk m c 0 t) (iblk m c 1 t) (iblk m c 2 t)
def stepCC (t : Fin cfg0.N) : FVec Ideal S8x3 .f32 := blockCC (iblk m c 0 t) (iblk m c 2 t)
def stepM (t : Fin cfg0.N) : FVec Ideal S8x3 .f32 := blockM (iblk m c 2 t)

/-- At the first row tile of a sample chunk accumulator 0 restarts: zero plus this block's sums. -/
theorem acc0_first (t : Fin cfg0.N) (h0 : t.val % 8 = 0) :
    (outsAt0 (F := Ideal) m c t.val t.isLt).2.1 = k0_pay1 (stepV m c t) (k0_pay6 (F := Ideal)) := by
  have h1 : ¬t.val % 8 = 7 := by omega
  rw [outsAt0_A m c t h0 h1]
  exact scratch_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- At every later row tile accumulator 0 is what the point before left plus this block's sums. -/
theorem acc0_next (t : Fin cfg0.N) (h0 : ¬t.val % 8 = 0) :
    (outsAt0 (F := Ideal) m c t.val t.isLt).2.1 = k0_pay1 (stepV m c t) (outsAt0 (F := Ideal) m c (t.val - 1) (Nat.lt_of_le_of_lt (Nat.sub_le _ _) t.isLt)).2.1 := by
  by_cases h1 : t.val % 8 = 7
  · rw [outsAt0_C m c t h0 h1]
    exact scratch_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2
  · rw [outsAt0_B m c t h0 h1]
    exact scratch_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-- At the first row tile of a sample chunk accumulator 1 restarts: zero plus this block's sums. -/
theorem acc1_first (t : Fin cfg0.N) (h0 : t.val % 8 = 0) :
    (outsAt0 (F := Ideal) m c t.val t.isLt).2.2.1 = k0_pay2 (stepNum m c t) (k0_pay7 (F := Ideal)) := by
  have h1 : ¬t.val % 8 = 7 := by omega
  rw [outsAt0_A m c t h0 h1]
  exact scratch_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- At every later row tile accumulator 1 is what the point before left plus this block's sums. -/
theorem acc1_next (t : Fin cfg0.N) (h0 : ¬t.val % 8 = 0) :
    (outsAt0 (F := Ideal) m c t.val t.isLt).2.2.1 = k0_pay2 (stepNum m c t) (outsAt0 (F := Ideal) m c (t.val - 1) (Nat.lt_of_le_of_lt (Nat.sub_le _ _) t.isLt)).2.2.1 := by
  by_cases h1 : t.val % 8 = 7
  · rw [outsAt0_C m c t h0 h1]
    exact scratch_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2
  · rw [outsAt0_B m c t h0 h1]
    exact scratch_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-- At the first row tile of a sample chunk accumulator 2 restarts: zero plus this block's sums. -/
theorem acc2_first (t : Fin cfg0.N) (h0 : t.val % 8 = 0) :
    (outsAt0 (F := Ideal) m c t.val t.isLt).2.2.2.1 = k0_pay3 (stepCC m c t) (k0_pay8 (F := Ideal)) := by
  have h1 : ¬t.val % 8 = 7 := by omega
  rw [outsAt0_A m c t h0 h1]
  exact scratch_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- At every later row tile accumulator 2 is what the point before left plus this block's sums. -/
theorem acc2_next (t : Fin cfg0.N) (h0 : ¬t.val % 8 = 0) :
    (outsAt0 (F := Ideal) m c t.val t.isLt).2.2.2.1 = k0_pay3 (stepCC m c t) (outsAt0 (F := Ideal) m c (t.val - 1) (Nat.lt_of_le_of_lt (Nat.sub_le _ _) t.isLt)).2.2.2.1 := by
  by_cases h1 : t.val % 8 = 7
  · rw [outsAt0_C m c t h0 h1]
    exact scratch_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2
  · rw [outsAt0_B m c t h0 h1]
    exact scratch_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-- At the first row tile of a sample chunk accumulator 3 restarts: zero plus this block's sums. -/
theorem acc3_first (t : Fin cfg0.N) (h0 : t.val % 8 = 0) :
    (outsAt0 (F := Ideal) m c t.val t.isLt).2.2.2.2 = k0_pay4 (stepM m c t) (k0_pay9 (F := Ideal)) := by
  have h1 : ¬t.val % 8 = 7 := by omega
  rw [outsAt0_A m c t h0 h1]
  exact scratch_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)

/-- At every later row tile accumulator 3 is what the point before left plus this block's sums. -/
theorem acc3_next (t : Fin cfg0.N) (h0 : ¬t.val % 8 = 0) :
    (outsAt0 (F := Ideal) m c t.val t.isLt).2.2.2.2 = k0_pay4 (stepM m c t) (outsAt0 (F := Ideal) m c (t.val - 1) (Nat.lt_of_le_of_lt (Nat.sub_le _ _) t.isLt)).2.2.2.2 := by
  by_cases h1 : t.val % 8 = 7
  · rw [outsAt0_C m c t h0 h1]
    exact scratch_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2
  · rw [outsAt0_B m c t h0 h1]
    exact scratch_B_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-- At the last row tile of a sample chunk the output block is the closing formula of the four accumulators as that
    point leaves them. -/
theorem out_last (t : Fin cfg0.N) (h1 : t.val % 8 = 7) :
    (outsAt0 (F := Ideal) m c t.val t.isLt).1 = k0_pay5 (outsAt0 (F := Ideal) m c t.val t.isLt).2.1 (outsAt0 (F := Ideal) m c t.val t.isLt).2.2.1 (outsAt0 (F := Ideal) m c t.val t.isLt).2.2.2.1 (outsAt0 (F := Ideal) m c t.val t.isLt).2.2.2.2 := by
  have h0 : ¬t.val % 8 = 0 := by omega
  rw [acc0_next m c t h0, acc1_next m c t h0, acc2_next m c t h0, acc3_next m c t h0, outsAt0_C m c t h0 h1]
  exact out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2

/-! ## Entry by entry -/

/-- Two indices that are the same number name the same point's contents. -/
theorem outsAt0_idx {n n' : ℕ} (e : n = n') (h : n < cfg0.N) (h' : n' < cfg0.N) :
    outsAt0 (F := Ideal) m c n h = outsAt0 (F := Ideal) m c n' h' := by
  subst e
  rfl

/-- Point (i, j) of the grid: sample chunk i, row tile j. -/
def pt (i : Fin 2) (j : Fin 8) : Fin cfg0.N := ⟨8 * i.val + j.val, by rw [show cfg0.N = 16 from N_0]; omega⟩

theorem pay1_apply (a b : FVec Ideal S8x3 .f32) (x : S8x3.Idx) : k0_pay1 a b x = b x + a x := by
  unfold k0_pay1
  rw [shapeCast_self]
  rfl

theorem pay6_apply (x : S8x3.Idx) : k0_pay6 (F := Ideal) x = 0 := by
  unfold k0_pay6
  rw [shapeCast_self]
  exact Ideal.ofBits_zero_f32

/-- After the last row tile of chunk i, entry (p, q) of accumulator 0 is the sum of the 8 tiles' block sums. -/
theorem total0 (i : Fin 2) (p : Fin 8) (q : Fin 3) :
    (outsAt0 (F := Ideal) m c (pt i 7).val (pt i 7).isLt).2.1 (ix2 p q) = 0 + ∑ j : Fin 8, stepV m c (pt i j) (ix2 p q) := by
  have hN : cfg0.N = 16 := N_0
  refine Cert.RunningSum.running_sum_last (N := 8) (fun j => stepV m c (pt i j) (ix2 p q)) 0
    (fun n hn => (outsAt0 (F := Ideal) m c (8 * i.val + n) (by omega)).2.1 (ix2 p q)) ?_ ?_ 7 (by omega) rfl
  · intro h
    have e := acc0_first m c (pt i ⟨0, h⟩) (by show (8 * i.val + 0) % 8 = 0; omega)
    exact (congrFun e (ix2 p q)).trans (by rw [pay1_apply, pay6_apply])
  · intro n h
    have e := acc0_next m c (pt i ⟨n + 1, h⟩) (by show ¬(8 * i.val + (n + 1)) % 8 = 0; omega)
    rw [outsAt0_idx m c (show (pt i ⟨n + 1, h⟩).val - 1 = 8 * i.val + n from by show 8 * i.val + (n + 1) - 1 = _; omega) _ (by omega)] at e
    exact (congrFun e (ix2 p q)).trans (pay1_apply _ _ _)

theorem pay2_apply (a b : FVec Ideal S8x3 .f32) (x : S8x3.Idx) : k0_pay2 a b x = b x + a x := by
  unfold k0_pay2
  rw [shapeCast_self]
  rfl

theorem pay7_apply (x : S8x3.Idx) : k0_pay7 (F := Ideal) x = 0 := by
  unfold k0_pay7
  rw [shapeCast_self]
  exact Ideal.ofBits_zero_f32

/-- After the last row tile of chunk i, entry (p, q) of accumulator 1 is the sum of the 8 tiles' block sums. -/
theorem total1 (i : Fin 2) (p : Fin 8) (q : Fin 3) :
    (outsAt0 (F := Ideal) m c (pt i 7).val (pt i 7).isLt).2.2.1 (ix2 p q) = 0 + ∑ j : Fin 8, stepNum m c (pt i j) (ix2 p q) := by
  have hN : cfg0.N = 16 := N_0
  refine Cert.RunningSum.running_sum_last (N := 8) (fun j => stepNum m c (pt i j) (ix2 p q)) 0
    (fun n hn => (outsAt0 (F := Ideal) m c (8 * i.val + n) (by omega)).2.2.1 (ix2 p q)) ?_ ?_ 7 (by omega) rfl
  · intro h
    have e := acc1_first m c (pt i ⟨0, h⟩) (by show (8 * i.val + 0) % 8 = 0; omega)
    exact (congrFun e (ix2 p q)).trans (by rw [pay2_apply, pay7_apply])
  · intro n h
    have e := acc1_next m c (pt i ⟨n + 1, h⟩) (by show ¬(8 * i.val + (n + 1)) % 8 = 0; omega)
    rw [outsAt0_idx m c (show (pt i ⟨n + 1, h⟩).val - 1 = 8 * i.val + n from by show 8 * i.val + (n + 1) - 1 = _; omega) _ (by omega)] at e
    exact (congrFun e (ix2 p q)).trans (pay2_apply _ _ _)

theorem pay3_apply (a b : FVec Ideal S8x3 .f32) (x : S8x3.Idx) : k0_pay3 a b x = b x + a x := by
  unfold k0_pay3
  rw [shapeCast_self]
  rfl

theorem pay8_apply (x : S8x3.Idx) : k0_pay8 (F := Ideal) x = 0 := by
  unfold k0_pay8
  rw [shapeCast_self]
  exact Ideal.ofBits_zero_f32

/-- After the last row tile of chunk i, entry (p, q) of accumulator 2 is the sum of the 8 tiles' block sums. -/
theorem total2 (i : Fin 2) (p : Fin 8) (q : Fin 3) :
    (outsAt0 (F := Ideal) m c (pt i 7).val (pt i 7).isLt).2.2.2.1 (ix2 p q) = 0 + ∑ j : Fin 8, stepCC m c (pt i j) (ix2 p q) := by
  have hN : cfg0.N = 16 := N_0
  refine Cert.RunningSum.running_sum_last (N := 8) (fun j => stepCC m c (pt i j) (ix2 p q)) 0
    (fun n hn => (outsAt0 (F := Ideal) m c (8 * i.val + n) (by omega)).2.2.2.1 (ix2 p q)) ?_ ?_ 7 (by omega) rfl
  · intro h
    have e := acc2_first m c (pt i ⟨0, h⟩) (by show (8 * i.val + 0) % 8 = 0; omega)
    exact (congrFun e (ix2 p q)).trans (by rw [pay3_apply, pay8_apply])
  · intro n h
    have e := acc2_next m c (pt i ⟨n + 1, h⟩) (by show ¬(8 * i.val + (n + 1)) % 8 = 0; omega)
    rw [outsAt0_idx m c (show (pt i ⟨n + 1, h⟩).val - 1 = 8 * i.val + n from by show 8 * i.val + (n + 1) - 1 = _; omega) _ (by omega)] at e
    exact (congrFun e (ix2 p q)).trans (pay3_apply _ _ _)

theorem pay4_apply (a b : FVec Ideal S8x3 .f32) (x : S8x3.Idx) : k0_pay4 a b x = b x + a x := by
  unfold k0_pay4
  rw [shapeCast_self]
  rfl

theorem pay9_apply (x : S8x3.Idx) : k0_pay9 (F := Ideal) x = 0 := by
  unfold k0_pay9
  rw [shapeCast_self]
  exact Ideal.ofBits_zero_f32

/-- After the last row tile of chunk i, entry (p, q) of accumulator 3 is the sum of the 8 tiles' block sums. -/
theorem total3 (i : Fin 2) (p : Fin 8) (q : Fin 3) :
    (outsAt0 (F := Ideal) m c (pt i 7).val (pt i 7).isLt).2.2.2.2 (ix2 p q) = 0 + ∑ j : Fin 8, stepM m c (pt i j) (ix2 p q) := by
  have hN : cfg0.N = 16 := N_0
  refine Cert.RunningSum.running_sum_last (N := 8) (fun j => stepM m c (pt i j) (ix2 p q)) 0
    (fun n hn => (outsAt0 (F := Ideal) m c (8 * i.val + n) (by omega)).2.2.2.2 (ix2 p q)) ?_ ?_ 7 (by omega) rfl
  · intro h
    have e := acc3_first m c (pt i ⟨0, h⟩) (by show (8 * i.val + 0) % 8 = 0; omega)
    exact (congrFun e (ix2 p q)).trans (by rw [pay4_apply, pay9_apply])
  · intro n h
    have e := acc3_next m c (pt i ⟨n + 1, h⟩) (by show ¬(8 * i.val + (n + 1)) % 8 = 0; omega)
    rw [outsAt0_idx m c (show (pt i ⟨n + 1, h⟩).val - 1 = 8 * i.val + n from by show 8 * i.val + (n + 1) - 1 = _; omega) _ (by omega)] at e
    exact (congrFun e (ix2 p q)).trans (pay4_apply _ _ _)

end Cert.KernelIdeal.Accumulate

end
-- ==== Proof.PlaneTotals.lean ====
/-
  From blocks to planes. Window w's block at grid point (i, j) is rows 8·i … 8·i + 7 of the samples, all three
  channels, rows 64·j … 64·j + 63 of the plane and every lane; so the 8 tiles of a chunk cut each plane into 8 bands
  of 64 rows, and an accumulator's final entry is the sum over the whole plane. The output block written at the
  last tile is then, entry by entry, the sum over the channels of the closing formula of the plane's four sums: the
  common row value of sample 8·i + p.
-/
import proofs.«102406_j40819369181889_2_alg».proof.Proof.Accumulate

set_option maxRecDepth 16384

noncomputable section

open scoped BigOperators

namespace Cert.KernelIdeal.PlaneTotals

open Cert.KernelIdeal Cert.KernelIdeal.Gen Cert.KernelIdeal.Pieces Cert.KernelIdeal.BlockSums Cert.KernelIdeal.Accumulate
open Idealize.ShloMosaic Idealize.ShloMosaic.TcCoe Idealize.ShloMosaic.ValueIdx Idealize.SL.Sem
open Cert.Residual

variable (m : (ℓ : Loc nD τ sig) → Buf (Elt Ideal) ℓ) (c : Dev nD)

/-- The three arguments on core c: the target, the estimate, the mask. -/
def argC : (⟨4, ![16, 3, 512, 512]⟩ : Shape).Idx → EReal := m ((c : Thread nD τ).loc main_arg0)
def argE : (⟨4, ![16, 3, 512, 512]⟩ : Shape).Idx → EReal := m ((c : Thread nD τ).loc main_arg1)
def argM : (⟨4, ![16, 3, 512, 512]⟩ : Shape).Idx → EReal := m ((c : Thread nD τ).loc main_arg2)

/-- Sample 8·i + p of the batch, and row 64·j + r of a plane. -/
def srow (i : Fin 2) (p : Fin 8) : Fin 16 := ⟨8 * i.val + p.val, by omega⟩
def prow (j : Fin 8) (r : Fin 64) : Fin 512 := ⟨64 * j.val + r.val, by omega⟩

/-! ## The input windows' index maps, decided over the grid: (chunk, 0, tile, 0) -/

theorem idx_in0 : ∀ t : Fin cfg0.N, win0_0.index t (0 : Fin 4) = t.val / 8 ∧ win0_0.index t (1 : Fin 4) = 0
    ∧ win0_0.index t (2 : Fin 4) = t.val % 8 ∧ win0_0.index t (3 : Fin 4) = 0 :=
  (by decide +kernel : ∀ t : Fin grid0.N, _)

theorem idx_in1 : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

theorem idx_in2 : ∀ t : Fin cfg0.N, win0_2.index t (0 : Fin 4) = t.val / 8 ∧ win0_2.index t (1 : Fin 4) = 0
    ∧ win0_2.index t (2 : Fin 4) = t.val % 8 ∧ win0_2.index t (3 : Fin 4) = 0 :=
  (by decide +kernel : ∀ t : Fin grid0.N, _)

/-! ## A block's entry is an array's entry -/

/-- Entry (p, q, r, w) of window 0's block at point (i, j) is the array's entry (8·i + p, q, 64·j + r, w). -/
theorem iblk0_apply (i : Fin 2) (j : Fin 8) (p : Fin 8) (q : Fin 3) (r : Fin 64) (w : Fin 512) :
    (iblk m c 0 (pt i j) : Vec Ideal S8x3x64x512 .f32) (ix4 p q r w) = argC m c (ix4 (srow i p) q (prow j r) w) := by
  have hv : (pt i j).val = 8 * i.val + j.val := rfl
  have e0 := (idx_in0 (pt i j)).1
  have e1 := (idx_in0 (pt i j)).2.1
  have e2 := (idx_in0 (pt i j)).2.2.1
  have e3 := (idx_in0 (pt i j)).2.2.2
  unfold iblk argC
  rw [View.read_apply]
  show V m c main_arg0 _ = m ((c : Thread nD τ).loc main_arg0) _
  rw [V_main_arg0]
  congr 1
  funext a
  apply Fin.ext
  have hi := i.isLt
  have hj := j.isLt
  match a with
  | ⟨0, _⟩ => show win0_0.index (pt i j) (0 : Fin 4) * 8 + 1 * p.val = 8 * i.val + p.val; rw [e0, hv]; omega
  | ⟨1, _⟩ => show win0_0.index (pt i j) (1 : Fin 4) * 3 + 1 * q.val = q.val; rw [e1]; omega
  | ⟨2, _⟩ => show win0_0.index (pt i j) (2 : Fin 4) * 64 + 1 * r.val = 64 * j.val + r.val; rw [e2, hv]; omega
  | ⟨3, _⟩ => show win0_0.index (pt i j) (3 : Fin 4) * 512 + 1 * w.val = w.val; rw [e3]; omega

/-- Entry (p, q, r, w) of window 1's block at point (i, j) is the array's entry (8·i + p, q, 64·j + r, w). -/
theorem iblk1_apply (i : Fin 2) (j : Fin 8) (p : Fin 8) (q : Fin 3) (r : Fin 64) (w : Fin 512) :
    (iblk m c 1 (pt i j) : Vec Ideal S8x3x64x512 .f32) (ix4 p q r w) = argE m c (ix4 (srow i p) q (prow j r) w) := by
  have hv : (pt i j).val = 8 * i.val + j.val := rfl
  have e0 := (idx_in1 (pt i j)).1
  have e1 := (idx_in1 (pt i j)).2.1
  have e2 := (idx_in1 (pt i j)).2.2.1
  have e3 := (idx_in1 (pt i j)).2.2.2
  unfold iblk argE
  rw [View.read_apply]
  show V m c main_arg1 _ = m ((c : Thread nD τ).loc main_arg1) _
  rw [V_main_arg1]
  congr 1
  funext a
  apply Fin.ext
  have hi := i.isLt
  have hj := j.isLt
  match a with
  | ⟨0, _⟩ => show win0_1.index (pt i j) (0 : Fin 4) * 8 + 1 * p.val = 8 * i.val + p.val; rw [e0, hv]; omega
  | ⟨1, _⟩ => show win0_1.index (pt i j) (1 : Fin 4) * 3 + 1 * q.val = q.val; rw [e1]; omega
  | ⟨2, _⟩ => show win0_1.index (pt i j) (2 : Fin 4) * 64 + 1 * r.val = 64 * j.val + r.val; rw [e2, hv]; omega
  | ⟨3, _⟩ => show win0_1.index (pt i j) (3 : Fin 4) * 512 + 1 * w.val = w.val; rw [e3]; omega

/-- Entry (p, q, r, w) of window 2's block at point (i, j) is the array's entry (8·i + p, q, 64·j + r, w). -/
theorem iblk2_apply (i : Fin 2) (j : Fin 8) (p : Fin 8) (q : Fin 3) (r : Fin 64) (w : Fin 512) :
    (iblk m c 2 (pt i j) : Vec Ideal S8x3x64x512 .f32) (ix4 p q r w) = argM m c (ix4 (srow i p) q (prow j r) w) := by
  have hv : (pt i j).val = 8 * i.val + j.val := rfl
  have e0 := (idx_in2 (pt i j)).1
  have e1 := (idx_in2 (pt i j)).2.1
  have e2 := (idx_in2 (pt i j)).2.2.1
  have e3 := (idx_in2 (pt i j)).2.2.2
  unfold iblk argM
  rw [View.read_apply]
  show V m c main_arg2 _ = m ((c : Thread nD τ).loc main_arg2) _
  rw [V_main_arg2]
  congr 1
  funext a
  apply Fin.ext
  have hi := i.isLt
  have hj := j.isLt
  match a with
  | ⟨0, _⟩ => show win0_2.index (pt i j) (0 : Fin 4) * 8 + 1 * p.val = 8 * i.val + p.val; rw [e0, hv]; omega
  | ⟨1, _⟩ => show win0_2.index (pt i j) (1 : Fin 4) * 3 + 1 * q.val = q.val; rw [e1]; omega
  | ⟨2, _⟩ => show win0_2.index (pt i j) (2 : Fin 4) * 64 + 1 * r.val = 64 * j.val + r.val; rw [e2, hv]; omega
  | ⟨3, _⟩ => show win0_2.index (pt i j) (3 : Fin 4) * 512 + 1 * w.val = w.val; rw [e3]; omega

/-! ## The accumulators after a chunk's last tile -/

/-- After the last row tile of chunk i, entry (p, q) of accumulator 0 is the sum over the whole plane of sample
    8·i + p, channel q. -/
theorem totalV_plane (i : Fin 2) (p : Fin 8) (q : Fin 3) :
    (outsAt0 (F := Ideal) m c (pt i 7).val (pt i 7).isLt).2.1 (ix2 p q) = ∑ hw, plane (argE m c) (srow i p) q hw * (plane (argE m c) (srow i p) q hw * plane (argM m c) (srow i p) q hw) := by
  rw [total0, zero_add]
  simp only [stepV, blockV_apply, iblk0_apply, iblk1_apply, iblk2_apply]
  refine Eq.trans ?_ (sum_plane (fun h w => argE m c (ix4 (srow i p) q h w) * (argE m c (ix4 (srow i p) q h w) * argM m c (ix4 (srow i p) q h w))))
  exact (sum_fin_blocks 8 64 (fun h : Fin 512 => ∑ w : Fin 512, argE m c (ix4 (srow i p) q h w) * (argE m c (ix4 (srow i p) q h w) * argM m c (ix4 (srow i p) q h w)))).symm

/-- After the last row tile of chunk i, entry (p, q) of accumulator 1 is the sum over the whole plane of sample
    8·i + p, channel q. -/
theorem totalNum_plane (i : Fin 2) (p : Fin 8) (q : Fin 3) :
    (outsAt0 (F := Ideal) m c (pt i 7).val (pt i 7).isLt).2.2.1 (ix2 p q) = ∑ hw, plane (argC m c) (srow i p) q hw * (plane (argE m c) (srow i p) q hw * plane (argM m c) (srow i p) q hw) := by
  rw [total1, zero_add]
  simp only [stepNum, blockNum_apply, iblk0_apply, iblk1_apply, iblk2_apply]
  refine Eq.trans ?_ (sum_plane (fun h w => argC m c (ix4 (srow i p) q h w) * (argE m c (ix4 (srow i p) q h w) * argM m c (ix4 (srow i p) q h w))))
  exact (sum_fin_blocks 8 64 (fun h : Fin 512 => ∑ w : Fin 512, argC m c (ix4 (srow i p) q h w) * (argE m c (ix4 (srow i p) q h w) * argM m c (ix4 (srow i p) q h w)))).symm

/-- After the last row tile of chunk i, entry (p, q) of accumulator 2 is the sum over the whole plane of sample
    8·i + p, channel q. -/
theorem totalCC_plane (i : Fin 2) (p : Fin 8) (q : Fin 3) :
    (outsAt0 (F := Ideal) m c (pt i 7).val (pt i 7).isLt).2.2.2.1 (ix2 p q) = ∑ hw, (plane (argM m c) (srow i p) q hw * plane (argC m c) (srow i p) q hw) * plane (argC m c) (srow i p) q hw := by
  rw [total2, zero_add]
  simp only [stepCC, blockCC_apply, iblk0_apply, iblk1_apply, iblk2_apply]
  refine Eq.trans ?_ (sum_plane (fun h w => (argM m c (ix4 (srow i p) q h w) * argC m c (ix4 (srow i p) q h w)) * argC m c (ix4 (srow i p) q h w)))
  exact (sum_fin_blocks 8 64 (fun h : Fin 512 => ∑ w : Fin 512, (argM m c (ix4 (srow i p) q h w) * argC m c (ix4 (srow i p) q h w)) * argC m c (ix4 (srow i p) q h w))).symm

/-- After the last row tile of chunk i, entry (p, q) of accumulator 3 is the sum over the whole plane of sample
    8·i + p, channel q. -/
theorem totalM_plane (i : Fin 2) (p : Fin 8) (q : Fin 3) :
    (outsAt0 (F := Ideal) m c (pt i 7).val (pt i 7).isLt).2.2.2.2 (ix2 p q) = ∑ hw, plane (argM m c) (srow i p) q hw := by
  rw [total3, zero_add]
  simp only [stepM, blockM_apply, iblk0_apply, iblk1_apply, iblk2_apply]
  refine Eq.trans ?_ (sum_plane (fun h w => argM m c (ix4 (srow i p) q h w)))
  exact (sum_fin_blocks 8 64 (fun h : Fin 512 => ∑ w : Fin 512, argM m c (ix4 (srow i p) q h w))).symm

/-! ## The output block -/

theorem lift_S8 (p : Fin 8) (q : Fin 3) (h : S8x3.Reduces [1] S8) : h.lift (ix1 p) q = ix2 p q := by
  funext d
  apply Fin.ext
  match d with
  | ⟨0, _⟩ => rfl
  | ⟨1, _⟩ => rfl

/-- The closing formula applied entry by entry to four 8x3 arrays. -/
def ratio (T0 T1 T2 T3 : Vec Ideal S8x3 .f32) : FVec Ideal S8x3 .f32 :=
  fun x => closing (T0 x) (T1 x) (T2 x) (T3 x)

/-- The closing payload is the row sums of that array, kept as a column. -/
theorem pay5_eq (T0 T1 T2 T3 : Vec Ideal S8x3 .f32) :
    k0_pay5 T0 T1 T2 T3
      = shapeCast S8x1 (multiReduction .add [1] S8 (ratio T0 T1 T2 T3) 0x00000000#32 reduces_S8x3_S8 (.inl rfl) rfl)
          shapeCasts_S8_S8x1 := rfl

/-- The closing payload, entry (p, u): the sum over the three channels of the closing formula of the accumulators'
    entries (p, q). -/
theorem pay5_apply (T0 T1 T2 T3 : Vec Ideal S8x3 .f32) (p : Fin 8) (u : Fin 1) :
    k0_pay5 T0 T1 T2 T3 (ix2 p u)
      = ∑ q : Fin 3, closing (T0 (ix2 p q)) (T1 (ix2 p q)) (T2 (ix2 p q)) (T3 (ix2 p q)) := by
  rw [pay5_eq]
  exact (shapeCast_a_a1_apply _ _ p u).trans
    ((Ideal.multiReduction_add_single (ratio T0 T1 T2 T3) _ _ _ _ (ix1 p)).trans
      (Finset.sum_congr rfl fun q _ => congrArg (ratio T0 T1 T2 T3) (lift_S8 p q _)))

/-- Entry (p, u) of the output block written at the last tile of chunk i is the row value of sample 8·i + p. -/
theorem out_row (i : Fin 2) (p : Fin 8) (u : Fin 1) :
    (outsAt0 (F := Ideal) m c (pt i 7).val (pt i 7).isLt).1 (ix2 p u)
      = rowValue (argC m c) (argE m c) (argM m c) (srow i p) := by
  rw [out_last m c (pt i 7) (by show (8 * i.val + 7) % 8 = 7; omega), pay5_apply]
  unfold rowValue
  refine Finset.sum_congr rfl fun q _ => ?_
  rw [quotClosed_eq_closing, totalV_plane, totalNum_plane, totalCC_plane, totalM_plane]

end Cert.KernelIdeal.PlaneTotals

end
-- ==== Proof.KernelResult.lean ====
/-
  The idealized kernel's run, read. The output window writes its 8x1 block back only at the last row tile of each
  sample chunk (points 7 and 15); the two blocks are rows 0-7 and 8-15 of the [16, 1] output, so they cover it and
  the array ends holding the 16 row values. The lines after the region reshape it to [16], add the rows and divide by
  16 and by 3.
-/
import proofs.«102406_j40819369181889_2_alg».proof.Proof.PlaneTotals
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Accumulate Cert.KernelIdeal.PlaneTotals
open Idealize.ShloMosaic Idealize.ShloMosaic.TcCoe Idealize.ShloMosaic.ValueIdx Idealize.SL.Sem
open Idealize.ShloMosaic.StableHlo
open Cert.Residual
open Facts₀ Facts

variable (m : (ℓ : Loc nD τ sig) → Buf (Elt Ideal) ℓ) (ρ : Dev nD → PrngReg) (c : Dev nD)

/-- The [16, 1] output array: row l holds the row value of sample l. -/
def rows : Buf (Elt Ideal) ((c : Thread nD τ).loc main_v0) :=
  fun x => rowValue (argC m c) (argE m c) (argM m c) ⟨(x 0).val, (x 0).isLt⟩

/-- The output window's index map over the grid: (chunk, 0). -/
theorem idx_out : ∀ t : Fin cfg0.N, win0_3.index t (0 : Fin 2) = t.val / 8 ∧ win0_3.index t (1 : Fin 2) = 0 :=
  (by decide +kernel : ∀ t : Fin grid0.N, _)

/-- Entry y of the block written at chunk i's last tile is the array's entry at the block's place. -/
theorem flushed_pt (i : Fin 2) (y : S8x1.Idx) :
    (outsAt0 (F := Ideal) m c (pt i 7).val (pt i 7).isLt).1 y = rows m c (((cfg0.win 3).blk (pt i 7)).view.emb y) := by
  obtain ⟨p, u, rfl⟩ : ∃ (p : Fin 8) (u : Fin 1), y = ix2 p u := ⟨y 0, y 1, eq_ix2 y⟩
  rw [out_row]
  unfold rows
  refine congrArg (rowValue (argC m c) (argE m c) (argM m c)) (Fin.ext ?_)
  have hv : (pt i 7).val = 8 * i.val + 7 := rfl
  have hi := i.isLt
  show 8 * i.val + p.val = win0_3.index (pt i 7) (0 : Fin 2) * 8 + 1 * p.val
  rw [(idx_out (pt i 7)).1, hv]
  omega

theorem flushed_at (i : Fin 2) (t : Fin cfg0.N) (h : t = pt i 7) :
    (dats m 0 c).flushed 3 t = ((cfg0.win 3).blk t).view.read (Elt Ideal) (rows m c) := by
  subst h
  show (cfg0.win 3).cut (grid0.coords (pt i 7)) ((dats m 0 c).after 3 (pt i 7)) = _
  rw [after0_3]
  funext y
  exact flushed_pt m c i y

/-- What a flushing point writes back is its block of the row values. -/
theorem flushed_eq (t : Fin cfg0.N) (hf : (cfg0.win 3).flush t = true) :
    (dats m 0 c).flushed 3 t = ((cfg0.win 3).blk t).view.read (Elt Ideal) (rows m c) := by
  have hN : cfg0.N = 16 := N_0
  have h7 : t.val % 8 = 7 := (flush0_3 t).mp hf
  have ht := t.isLt
  exact flushed_at m c ⟨t.val / 8, by omega⟩ t (Fin.ext (by show t.val = 8 * (t.val / 8) + 7; omega))

/-- An index of the output is in point t's block iff each coordinate is in the block's range. -/
theorem mem_blk (t : Fin cfg0.N) (x : S16x1.Idx) :
    x ∈ ((cfg0.win 3).blk t).view.set ↔ ∀ a : Fin 2, win0_3.index t a * S8x1.size a ≤ (x a).val ∧ (x a).val < win0_3.index t a * S8x1.size a + S8x1.size a := by
  show x ∈ ((View.whole main_v0).slice (win0_3.rect t)).set ↔ _
  rw [View.set_slice_whole, Rect.mem_set_unit]
  exact Iff.rfl

/-- The output array after the run holds the row values: row l is in the block of chunk l / 8. -/
theorem final : (dats m 0 c).arrAt 3 cfg0.N = rows m c :=
  (dats m 0 c).arrAt_eq_of_cover 3 (rows m c) (flushed_eq m c) fun x => by
    have hN : cfg0.N = 16 := N_0
    have hx0 : (x 0).val < 16 := (x 0).isLt
    have hx1 : (x 1).val < 1 := (x 1).isLt
    refine ⟨pt ⟨(x 0).val / 8, by omega⟩ 7, (flush0_3 _).mpr (by show (8 * ((x 0).val / 8) + 7) % 8 = 7; omega), ?_⟩
    rw [mem_blk]
    have hv : (pt ⟨(x 0).val / 8, by omega⟩ 7).val = 8 * ((x 0).val / 8) + 7 := rfl
    intro a
    match a with
    | ⟨0, _⟩ =>
      show win0_3.index (pt ⟨(x 0).val / 8, by omega⟩ 7) (0 : Fin 2) * 8 ≤ (x 0).val
        ∧ (x 0).val < win0_3.index (pt ⟨(x 0).val / 8, by omega⟩ 7) (0 : Fin 2) * 8 + 8
      rw [(idx_out _).1, hv]
      omega
    | ⟨1, _⟩ =>
      show win0_3.index (pt ⟨(x 0).val / 8, by omega⟩ 7) (1 : Fin 2) * 1 ≤ (x 1).val
        ∧ (x 1).val < win0_3.index (pt ⟨(x 0).val / 8, by omega⟩ 7) (1 : Fin 2) * 1 + 1
      rw [(idx_out _).2]
      omega

/-! ## The lines after the region -/

/-- A column [a, 1] cast to the vector [a], read at l, is the column's entry (l, 0). -/
theorem shapeCast_a1_a_apply {α : Type} {a : ℕ} (x : (⟨2, ![a, 1]⟩ : Shape).Idx → α)
    (h : (⟨2, ![a, 1]⟩ : Shape).ShapeCasts ⟨1, ![a]⟩) (l : Fin a) :
    shapeCast ⟨1, ![a]⟩ x h (ix1 l) = x (ix2 l (0 : Fin 1)) :=
  shapeCast_apply x h _ _ (by
    rw [Shape.rowMajor_val_two, Shape.rowMajor_val_one]
    show l.val * 1 + 0 = l.val
    omega)

/-- The 16 row values as a vector. -/
def rowVec : (⟨S16, .f32⟩ : BufTy).Contents (Elt Ideal) := shapeCast S16 (rows m c) Gen.shapeCasts_S16x1_S16

theorem rowVec_apply (l : Fin 16) : rowVec m c (ix1 l) = rowValue (argC m c) (argE m c) (argM m c) l := by
  unfold rowVec
  refine (shapeCast_a1_a_apply _ _ l).trans ?_
  rfl

/-- What both programs do with the 16 row values: add them, divide by 16, divide by 3. -/
def tail (row : (⟨S16, .f32⟩ : BufTy).Contents (Elt Ideal)) : (⟨S_, .f32⟩ : BufTy).Contents (Elt Ideal) :=
  Host.divf (F := Ideal)
    (Host.divf (F := Ideal)
      (Host.reduceAdd (F := Ideal) row (constant (F := Ideal) S_ .f32 0x00000000#32) Gen.reducesTo_S16_S_d0 Gen.h_S_)
      (constant (F := Ideal) S_ .f32 0x41800000#32))
    (constant (F := Ideal) S_ .f32 0x40400000#32)

/-- The result buffer after the lines that follow the region. -/
theorem result_eq : Pipeline.afterTail₀ cfgs (dats m) 0 (V0 m) [hostOps1] c main_v4 = tail (rowVec m c) := by
  have e : Pipeline.withArrays (cfgs 0).spec c (V0 m c) (fun w => (dats m 0 c).arrAt w (cfgs 0).N)
      (Proc.devRef .tc main_v0) = rows m c :=
    (Pipeline.withArrays_arr spec0 launch0.win.arr_inj c _ _ 3).trans (final m c)
  unfold Pipeline.afterTail₀
  show StableHlo.after hostOps1 _ (Proc.devRef .tc main_v4) = _
  after_results
  rw [e]
  rfl

/-- The run, read: the result at the tail of the row values, the arguments unchanged. -/
theorem run : θ_run defs (onTc (τ := τ) (main (F := Ideal))) ⟨m, fun _ => 0, ρ⟩ fun r => ∀ c : Dev nD,
      r.2.mem ((c.tc : Thread nD τ).loc main_v4) = tail (rowVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v4 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.Bridge.lean ====
/-
  The two sides meet. For real entries the reference's row value of every sample is the common row value, which is
  what the kernel's output array holds; both programs then apply the same tail (add the 16 rows, divide by 16 and by
  3), so the reference's result is the kernel's.
-/
import proofs.«102406_j40819369181889_2_alg».proof.Proof.RefSide
import proofs.«102406_j40819369181889_2_alg».proof.Proof.KernelResult

noncomputable section

namespace Cert.Bridge

open Idealize.ShloMosaic Idealize.ShloMosaic.TcCoe Idealize.ShloMosaic.ValueIdx Idealize.SL.Sem
open Cert.Residual Cert.Math
open Cert.KernelIdeal Cert.KernelIdeal.Result Cert.KernelIdeal.PlaneTotals

/-- The reference's result of the kernel's argument arrays is the kernel's result, when every entry is real. -/
theorem ref_result (m : (ℓ : Loc nD τ sig) → Buf (Elt Ideal) ℓ) (c : Dev nD)
    (r0 : ∀ i, IsReal (argC m c i)) (r1 : ∀ i, IsReal (argE m c i)) (r2 : ∀ i, IsReal (argM m c i)) :
    Cert.ReferenceIdeal.Read.val_main_v23 (F := Ideal) (argC m c) (argE m c) (argM m c) = tail (rowVec m c) := by
  have hrow : Cert.ReferenceIdeal.Read.val_main_v20 (F := Ideal) (argC m c) (argE m c) (argM m c) = rowVec m c := by
    funext j
    obtain ⟨l, rfl⟩ : ∃ l : Fin 16, j = ix1 l := ⟨j 0, eq_ix1 j⟩
    rw [Cert.RefSide.row_eq _ _ _ r0 r1 r2 l, rowVec_apply]
  exact congrArg tail hrow

end Cert.Bridge

end
-- ==== Proof.Finite.lean ====
/-
  The precondition read: it is the conjunction of three flags, each the "and" over every entry of one argument of
  |x| < +inf. On the extended reals |x| = max x (-x), so a set flag says every entry of that argument is a real number.
-/
import proofs.«102406_j40819369181889_2_alg».proof.Pre_finite_inputs
import proofs.«102406_j40819369181889_2_alg».proof.Proof.LibRealSums
import Idealize.ShloMosaic.Lib.ReduceAll
import Idealize.ShloMosaic.Lib.ValueIdx
import Idealize.ShloMosaic.Lib.Affine
import Idealize.ShloMosaic.PureOps.Ideal.Laws

noncomputable section

namespace Cert.Finite

open Cert.Pre_finite_inputs Cert.Pre_finite_inputs.Facts Idealize.ShloMosaic Cert.Math

variable [Cert.Pre_finite_inputs.Facts]

instance : Subsingleton S_.Idx := ⟨fun a b => funext fun d => d.elim0⟩

/-- An extended real whose flag |x| < +inf is set is real. -/
theorem isReal_of_flag (x : EReal) (e : Ideal.cmp .olt (max x (-x)) (Ideal.ofBits .f32 0x7F800000#32) = 1#1) :
    IsReal x := by
  rw [ofBits_inf] at e
  refine isReal_of_abs_lt_top ?_
  by_contra hcon
  simp [Ideal.cmp, hcon] at e

/-- If the "and" over all entries of |x| < +inf is set, every entry of x is real. -/
theorem entries_real (x : FVec Ideal S16x3x512x512 .f32)
    (e : Host.reduce IntOp.andi
        (cmpf .olt (Host.absf x)
          (broadcastInDim S16x3x512x512 ![] bcast_S_S16x3x512x512 (constant (F := Ideal) S_ .f32 0x7F800000#32)))
        (constantI S_ 1 1#1) reducesTo_S16x3x512x512_S_d0_1_2_3 h_S_ ValueIdx.ix0 = 1#1)
    (i : S16x3x512x512.Idx) : IsReal (x i) :=
  isReal_of_flag (x i) (Host.reduce_andi_all _ _ _ _ ValueIdx.ix0 e i)

/-- Under the precondition every entry of each of the three arguments is real. -/
theorem real_of_pre (x0 x1 x2 : FVec Ideal S16x3x512x512 .f32) (h : fn (F := Ideal) x0 x1 x2 = fun _ => 1#1) :
    (∀ i, IsReal (x0 i)) ∧ (∀ i, IsReal (x1 i)) ∧ (∀ i, IsReal (x2 i)) := by
  have h0 := congrFun h ValueIdx.ix0
  unfold fn at h0
  dsimp only at h0
  obtain ⟨h01, h2⟩ := IntOp.andi_eq_one.mp h0
  obtain ⟨ha, hb⟩ := IntOp.andi_eq_one.mp h01
  exact ⟨entries_real x0 ha, entries_real x1 hb, entries_real x2 h2⟩

end Cert.Finite

end
-- ==== Proof.lean ====
/-
  Scale-invariant masked squared error of float32[16, 3, 512, 512] arrays (target c, estimate e, mask m), kernel
  against reference, equal on the extended reals when every input entry is finite.

  For each sample l and channel q let v = Σ e·(e·m), num = Σ c·(e·m), scc = Σ (m·c)·c and ms = Σ m over the
  512 x 512 plane, and let a = num / v where v exceeds the threshold (the f32 nearest 1e-5), a = 0 elsewhere. The
  reference sums the masked squared residual Σ (m·(c − a·e))·(c − a·e) directly; the kernel accumulates v, num, scc
  and ms over 8 row tiles of 64 rows in four 8x3 accumulators and forms the closed form scc − (2·a)·num + (a·a)·v.
  The two are equal for real entries and a real scale (distributivity, which is where finiteness is used; the scale
  is real because v above a positive threshold is a nonzero real). Both then divide by ms (the same division of
  equal arguments, whatever ms is), add the three channels, add the 16 samples, and divide by 16 and by 3.

  The kernel's side is read off the generated frame run: the accumulators after each grid point, the output block at
  each chunk's last tile, the two blocks covering the [16, 1] output, then the lines after the region. The
  reference's side is its generated run read one operation at a time. The ideal pass rewrote nothing, so the
  idealized kernel is the kernel's own text read at the ideal values.
-/
import proofs.«102406_j40819369181889_2_alg».proof.Defs
import proofs.«102406_j40819369181889_2_alg».proof.Proof.Gen.Kernel
import proofs.«102406_j40819369181889_2_alg».proof.Proof.Gen.Kernel.Skeleton
import proofs.«102406_j40819369181889_2_alg».proof.Proof.Gen.Kernel.Launch
import proofs.«102406_j40819369181889_2_alg».proof.Proof.Gen.Kernel.Points
import proofs.«102406_j40819369181889_2_alg».proof.Proof.Gen.Kernel.Frame
import proofs.«102406_j40819369181889_2_alg».proof.Proof.Gen.KernelIdeal
import proofs.«102406_j40819369181889_2_alg».proof.Proof.Gen.KernelIdeal.Skeleton
import proofs.«102406_j40819369181889_2_alg».proof.Proof.Gen.KernelIdeal.Launch
import proofs.«102406_j40819369181889_2_alg».proof.Proof.Gen.KernelIdeal.Points
import proofs.«102406_j40819369181889_2_alg».proof.Proof.Gen.KernelIdeal.Frame
import proofs.«102406_j40819369181889_2_alg».proof.Proof.Gen.ReferenceIdeal
import proofs.«102406_j40819369181889_2_alg».proof.Proof.Gen.ReferenceIdeal.Run
import proofs.«102406_j40819369181889_2_alg».proof.Proof.Gen.ReferenceIdeal.Read
import proofs.«102406_j40819369181889_2_alg».proof.Proof.Gen.Pre_finite_inputs
import proofs.«102406_j40819369181889_2_alg».proof.Proof.Bridge
import proofs.«102406_j40819369181889_2_alg».proof.Proof.Finite
import Idealize.ShloMosaic.Adequacy
import Idealize.ShloMosaic.Init

noncomputable section

namespace Cert.Proof

open Idealize.ShloMosaic Idealize.SL.Sem

/-- The kernel runs and leaves its arguments unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, all finite, both programs end at the tail of the 16 row values. -/
theorem algebraic : Cert.algebraic_KernelIdeal_ReferenceIdeal := by
  intro m ρ m' ρ' hpre hagree
  refine ⟨fun c => Cert.KernelIdeal.Result.tail (Cert.KernelIdeal.Result.rowVec m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  obtain ⟨r0, r1, r2⟩ := Cert.Finite.real_of_pre _ _ _ (hpre c)
  exact Cert.Bridge.ref_result m c r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
